-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S84281x512 : Shape := ⟨2, ![84281, 512]⟩
abbrev S512 : Shape := ⟨1, ![512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S84281x512 : S_.BroadcastsInDim S84281x512 (![] : Fin 0 → Fin S84281x512.rank)
  reducesTo_S84281x512_S_d0_1 : S84281x512.ReducesTo [0, 1] S_

variable [Facts]

def fn {F : FTy → Type} [FloatOps F] (main_arg0 : FVec F S512x512 .f32) (main_arg1 : FVec F S84281x512 .f32) (main_arg2 : IVec S512 32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S84281x512 .f32 := Host.absf main_arg1
  let main_cst_0 : FVec F S_ .f32 := constant S_ .f32 0x7F800000#32
  let main_v5 : FVec F S84281x512 .f32 := broadcastInDim S84281x512 ![] bcast_S_S84281x512 main_cst_0
  let main_v6 : IVec S84281x512 1 := cmpf .olt main_v4 main_v5
  let main_c_1 : IVec S_ 1 := constantI S_ 1 1#1
  let main_v7 : IVec S_ 1 := (fun x v => Host.reduce IntOp.andi x v reducesTo_S84281x512_S_d0_1 h_S_) main_v6 main_c_1
  let main_v8 : IVec S_ 1 := andi main_v3 main_v7
  main_v8
-- ==== Kernel.lean ====
abbrev S512x512 : Shape := ⟨2, ![512, 512]⟩
abbrev S84281x512 : Shape := ⟨2, ![84281, 512]⟩
abbrev S512 : Shape := ⟨1, ![512]⟩
abbrev S_ : Shape := ⟨0, ![]⟩
abbrev S512x1 : Shape := ⟨2, ![512, 1]⟩
abbrev S512x84281 : Shape := ⟨2, ![512, 84281]⟩
abbrev S2048x512 : Shape := ⟨2, ![2048, 512]⟩
abbrev S512x2048 : Shape := ⟨2, ![512, 2048]⟩
abbrev S2048 : Shape := ⟨1, ![2048]⟩
abbrev S2048x1 : Shape := ⟨2, ![2048, 1]⟩

abbrev nBuf : Space → Nat
  | .hbm => 16
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S84281x512, .f32⟩
  | .hbm, ⟨2, _⟩ => ⟨S512, .i32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S512x512, .bf16⟩
  | .hbm, ⟨14, _⟩ => ⟨S512x1, .i32⟩
  | .hbm, ⟨15, _⟩ => ⟨S512x84281, .f32⟩
  | .local _ .vmem, ⟨0, _⟩ => ⟨S512x512, .bf16⟩
  | .local _ .vmem, ⟨1, _⟩ => ⟨S2048x512, .f32⟩
  | .local _ .vmem, ⟨2, _⟩ => ⟨S2048x512, .f32⟩
  | .local _ .vmem, ⟨3, _⟩ => ⟨S512x1, .i32⟩
  | .local _ .vmem, ⟨4, _⟩ => ⟨S512x2048, .f32⟩
  | .local _ .vmem, ⟨5, _⟩ => ⟨S512x2048, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![42], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  bitsLt_bf16_f32 : FTy.bits .bf16 < FTy.bits .f32
  shapeCasts_S512_S512x1 : S512.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  broadcasts_S2048x1_S2048x512 : S2048x1.Broadcasts S2048x512
  iota_S512x2048_d1_w32 : S512x2048.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2048 : S512x1.Broadcasts S512x2048
  reduces_S512x2048_S512 : S512x2048.Reduces [1] S512
  inb_S512x2048_S512x2048_0_0 : ∀ a, (![0, 0] : Fin 2 → Nat) a + S512x2048.size a ≤ S512x2048.size a
  h_S512x2048 : 0 < S512x2048.numel
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .bf16 = 32 ∨ (Rect.block (s := S512x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x512.size a < S84281x512.size a
  hwx0_1 : ∀ i : grid0.Coords, EltTy.bits .f32 = 32 ∨ (Rect.unit (s := S84281x512) (fun a => cc0_transform_1 i a * S2048x512.size a) (fun a => (Pipeline.Clip.of (cc0_transform_1 i a) (S2048x512.size a) (S84281x512.size a)).extent (S2048x512.size a)) fun a => Pipeline.Clip.inb (Pipeline.Clip.ok_of (hstart0_1 i a))).WholeWords (EltTy.packing .f32)
  hwxs0_1 : ∀ i : grid0.Coords, EltTy.bits .f32 = 32 ∨ (Rect.unit (s := S2048x512) (fun _ => 0) (fun a => (Pipeline.Clip.of (cc0_transform_1 i a) (S2048x512.size a) (S84281x512.size a)).extent (S2048x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .i32 = 32 ∨ (Rect.block (s := S512x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S512x2048.size a < S512x84281.size a
  hwx0_3 : ∀ i : grid0.Coords, EltTy.bits .f32 = 32 ∨ (Rect.unit (s := S512x84281) (fun a => cc0_transform_3 i a * S512x2048.size a) (fun a => (Pipeline.Clip.of (cc0_transform_3 i a) (S512x2048.size a) (S512x84281.size a)).extent (S512x2048.size a)) fun a => Pipeline.Clip.inb (Pipeline.Clip.ok_of (hstart0_3 i a))).WholeWords (EltTy.packing .f32)
  hwxs0_3 : ∀ i : grid0.Coords, EltTy.bits .f32 = 32 ∨ (Rect.unit (s := S512x2048) (fun _ => 0) (fun a => (Pipeline.Clip.of (cc0_transform_3 i a) (S512x2048.size a) (S512x84281.size a)).extent (S512x2048.size a)) fun a => (Nat.zero_add _).trans_le (Pipeline.Clip.extent_le (Pipeline.Clip.ok_of (hstart0_3 i a)))).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v5) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S2048x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v6) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v7) S512x2048.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x512 : Shape := ⟨2, ![512, 512]⟩
abbrev S84281x512 : Shape := ⟨2, ![84281, 512]⟩
abbrev S512 : Shape := ⟨1, ![512]⟩
abbrev S_ : Shape := ⟨0, ![]⟩
abbrev S512x1 : Shape := ⟨2, ![512, 1]⟩
abbrev S84281 : Shape := ⟨1, ![84281]⟩
abbrev S84281x1 : Shape := ⟨2, ![84281, 1]⟩
abbrev S512x84281 : Shape := ⟨2, ![512, 84281]⟩
abbrev S1x84281 : Shape := ⟨2, ![1, 84281]⟩

abbrev nBuf : Space → Nat
  | .hbm => 59
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S84281x512, .f32⟩
  | .hbm, ⟨2, _⟩ => ⟨S512, .i32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S84281x512, .f32⟩
  | .hbm, ⟨14, _⟩ => ⟨S_, .f32⟩
  | .hbm, ⟨15, _⟩ => ⟨S84281, .f32⟩
  | .hbm, ⟨16, _⟩ => ⟨S84281x1, .f32⟩
  | .hbm, ⟨17, _⟩ => ⟨S84281x1, .f32⟩
  | .hbm, ⟨18, _⟩ => ⟨S_, .f32⟩
  | .hbm, ⟨19, _⟩ => ⟨S84281x1, .f32⟩
  | .hbm, ⟨20, _⟩ => ⟨S84281x1, .f32⟩
  | .hbm, ⟨21, _⟩ => ⟨S84281x512, .f32⟩
  | .hbm, ⟨22, _⟩ => ⟨S84281x512, .f32⟩
  | .hbm, ⟨23, _⟩ => ⟨S512x84281, .f32⟩
  | .hbm, ⟨24, _⟩ => ⟨S512x84281, .f32⟩
  | .hbm, ⟨25, _⟩ => ⟨S_, .f32⟩
  | .hbm, ⟨26, _⟩ => ⟨S512x84281, .f32⟩
  | .hbm, ⟨27, _⟩ => ⟨S512x84281, .f32⟩
  | .hbm, ⟨28, _⟩ => ⟨S_, .f32⟩
  | .hbm, ⟨29, _⟩ => ⟨S512x84281, .f32⟩
  | .hbm, ⟨30, _⟩ => ⟨S512x84281, .f32⟩
  | .hbm, ⟨31, _⟩ => ⟨S512x84281, .f32⟩
  | .hbm, ⟨32, _⟩ => ⟨S_, .f32⟩
  | .hbm, ⟨33, _⟩ => ⟨S512x84281, .f32⟩
  | .hbm, ⟨34, _⟩ => ⟨S512x84281, .f32⟩
  | .hbm, ⟨35, _⟩ => ⟨S_, .f32⟩
  | .hbm, ⟨36, _⟩ => ⟨S512x84281, .f32⟩
  | .hbm, ⟨37, _⟩ => ⟨S512x84281, .f32⟩
  | .hbm, ⟨38, _⟩ => ⟨S512x84281, .f32⟩
  | .hbm, ⟨39, _⟩ => ⟨S_, .f32⟩
  | .hbm, ⟨40, _⟩ => ⟨S512x84281, .f32⟩
  | .hbm, ⟨41, _⟩ => ⟨S512x84281, .f32⟩
  | .hbm, ⟨42, _⟩ => ⟨S_, .f32⟩
  | .hbm, ⟨43, _⟩ => ⟨S512x84281, .f32⟩
  | .hbm, ⟨44, _⟩ => ⟨S512x84281, .i1⟩
  | .hbm, ⟨45, _⟩ => ⟨S_, .f32⟩
  | .hbm, ⟨46, _⟩ => ⟨S512x84281, .f32⟩
  | .hbm, ⟨47, _⟩ => ⟨S512x84281, .f32⟩
  | .hbm, ⟨48, _⟩ => ⟨S512x84281, .f32⟩
  | .hbm, ⟨49, _⟩ => ⟨S84281, .i32⟩
  | .hbm, ⟨50, _⟩ => ⟨S1x84281, .i32⟩
  | .hbm, ⟨51, _⟩ => ⟨S512x1, .i32⟩
  | .hbm, ⟨52, _⟩ => ⟨S512x84281, .i32⟩
  | .hbm, ⟨53, _⟩ => ⟨S512x84281, .i32⟩
  | .hbm, ⟨54, _⟩ => ⟨S512x84281, .i1⟩
  | .hbm, ⟨55, _⟩ => ⟨S512x84281, .f32⟩
  | .hbm, ⟨56, _⟩ => ⟨S_, .f32⟩
  | .hbm, ⟨57, _⟩ => ⟨S512x84281, .f32⟩
  | .hbm, ⟨58, _⟩ => ⟨S512x84281, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  reducesTo_S84281x512_S84281_d1 : S84281x512.ReducesTo [1] S84281
  bcast_S84281_S84281x1_0 : S84281.BroadcastsInDim S84281x1 (![0] : Fin 1 → Fin S84281x1.rank)
  bcast_S_S84281x1 : S_.BroadcastsInDim S84281x1 (![] : Fin 0 → Fin S84281x1.rank)
  bcast_S84281x1_S84281x512_0_1 : S84281x1.BroadcastsInDim S84281x512 (![0, 1] : Fin 2 → Fin S84281x512.rank)
  bcast_S_S512x84281 : S_.BroadcastsInDim S512x84281 (![] : Fin 0 → Fin S512x84281.rank)
  bcast_S84281_S1x84281_1 : S84281.BroadcastsInDim S1x84281 (![1] : Fin 1 → Fin S1x84281.rank)
  bcast_S1x84281_S512x84281_0_1 : S1x84281.BroadcastsInDim S512x84281 (![0, 1] : Fin 2 → Fin S512x84281.rank)
  bcast_S512x1_S512x84281_0_1 : S512x1.BroadcastsInDim S512x84281 (![0, 1] : Fin 2 → Fin S512x84281.rank)
  dot_S512x512_S84281x512_S512x84281_1_1_0_0_n_n_wf : DotDims.WF S512x512 S84281x512 S512x84281 [1] [1] [0] [0] [] []

variable [Facts₀]

def dot_S512x512_S84281x512_S512x84281_1_1_0_0_n_n : DotDims S512x512 S84281x512 S512x84281 where
  lhsContracting := [1]
  rhsContracting := [1]
  lhsNonContracting := [0]
  rhsNonContracting := [0]
  lhsBatch := []
  rhsBatch := []
  wf := dot_S512x512_S84281x512_S512x84281_1_1_0_0_n_n_wf

class Facts : Prop extends Facts₀ where

variable [Facts]
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.LibZeroAccDots.lean ====
/-
  Two matrix products into a zero accumulator, read at an index as plain sums, for operands of any float formats.

  At the ideal values a matrix product unit adds, to the accumulator's entry, the sum over the contraction's index set of
  the products of the operands' entries; the operands' float formats play no part, every float being an extended real.
  When the accumulator is the zero splat there is no accumulator term, and for the two common two-dimensional shapes the
  contraction's index set is one axis of extent K:

    rows by columns,  [A, K] × [K, B] → [A, B]  (left axis 1 against right axis 0):  the entry at (p, q) is
      ∑ k < K, x (p, k) · y (k, q);
    rows by rows,     [A, K] × [B, K] → [A, B]  (left axis 1 against right axis 1, the product with the transposed right
      matrix, no transpose formed):                                                   the entry at (p, q) is
      ∑ k < K, x (p, k) · y (q, k).

  Both are stated for ANY record with those dimension numbers, any contraction precision, and any pair of operand formats
  (a product of two bf16 matrices into an f32 accumulator is the usual case).
-/
import proofs.«101236_j19877108646226_2_alg».proof.Proof.LibPlainDot
import proofs.«101236_j19877108646226_2_alg».proof.Proof.LibDotRowRow
import Idealize.ShloMosaic.PureOps.Ideal.Laws
import Idealize.ShloMosaic.Lib.ValueIdx

open scoped BigOperators

namespace Cert.ZeroAccDots

open Idealize.ShloMosaic Idealize.ShloMosaic.ValueIdx

/-- Rows by columns into the zero splat, at `(p, q)`: the plain sum along row `p` of the left operand and column `q`
    of the right. -/
theorem rows_columns {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![A, K]⟩ φ₁) (y : FVec Ideal ⟨2, ![K, B]⟩ φ₂) (p : Fin A) (q : Fin B) :
    FloatOps.matmul d prec x y (constant (F := Ideal) ⟨2, ![A, B]⟩ .f32 0x00000000#32) (ix2 p q)
      = ∑ k : Fin K, x (ix2 p k) * y (ix2 k q) :=
  (Ideal.matmul_constant_zero_apply d prec x y (ix2 p q)).trans
    (Cert.PlainDot.sum_eq d hlb hln hlc hrb hrn hrc hr hs x y p q)

/-- Rows by rows into the zero splat, at `(p, q)`: the plain sum along row `p` of the left operand and row `q` of the
    right. -/
theorem rows_rows {A K B : Nat} {φ₁ φ₂ : FTy} (d : DotDims ⟨2, ![A, K]⟩ ⟨2, ![B, K]⟩ ⟨2, ![A, B]⟩)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K) (prec : Option ContractPrecision)
    (x : FVec Ideal ⟨2, ![A, K]⟩ φ₁) (y : FVec Ideal ⟨2, ![B, K]⟩ φ₂) (p : Fin A) (q : Fin B) :
    FloatOps.matmul d prec x y (constant (F := Ideal) ⟨2, ![A, B]⟩ .f32 0x00000000#32) (ix2 p q)
      = ∑ k : Fin K, x (ix2 p k) * y (ix2 q k) :=
  (Ideal.matmul_constant_zero_apply d prec x y (ix2 p q)).trans
    (Cert.RowRowDot.sum_eq d hlb hln hlc hrb hrn hrc hr hs x y p q)

end Cert.ZeroAccDots
-- ==== Proof.LibIx2.lean ====
/-
  Rank-2 operations read at an index given by coordinates: a matrix product with one contracted axis into the zero
  tile, a lane reduction (sum or maximum) of a matrix, and the keepdims column layouts [a] → [a,1] and
  [a,1] → [a,b]. Each is the library's read-at-an-index lemma with both indices written by coordinates.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibIx2

open Idealize.ShloMosaic Idealize.ShloMosaic.ValueIdx

/-! ## The keepdims column layouts -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A lane reduction of a matrix -/

/-- The source index over row `p` with lane `c` inserted is `(p, c)`. -/
theorem lift_ix1 {a b : ℕ} (h : (⟨2, ![a, b]⟩ : Shape).Reduces [1] ⟨1, ![a]⟩) (p : Fin a) (c : Fin b) :
    h.lift (ix1 p) c = ix2 p c := by
  funext ax
  match ax with
  | ⟨0, _⟩ => rfl
  | ⟨1, _⟩ => rfl

/-- A float sum over the lanes of an `[a, b]` matrix is, at row `p`, the sum over the lane coordinate. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ c : Fin b, src (ix2 p c) :=
  (Ideal.multiReduction_add_single src acc h hφ hacc (ix1 p)).trans
    (Finset.sum_congr rfl fun c _ => congrArg src (lift_ix1 h p c))

/-- A float maximum over the lanes of an `[a, b]` matrix is, at row `p`, the fold of `max` from the accumulator's
    value over the lane coordinate. -/
theorem multiReduction_maximumf_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  have e : (src ∘ h.lift (ix1 p)) = fun c : Fin b => src (ix2 p c) := funext fun c => congrArg src (lift_ix1 h p c)
  show (Finset.univ : Finset (Fin b)).fold max (Ideal.ofBits φ acc) (src ∘ h.lift (ix1 p)) = _
  rw [e]
  rfl

/-! ## A matrix product with one contracted axis -/

section Matmul
variable {m k n : ℕ} (d : DotDims ⟨2, ![m, k]⟩ ⟨2, ![k, n]⟩ ⟨2, ![m, n]⟩)

private theorem coord_congr {s : Shape} (j : s.Idx) (p q : ℕ) (hp : p < s.rank) (hq : q < s.rank) (e : p = q) :
    (j ⟨p, hp⟩).val = (j ⟨q, hq⟩).val := by subst e; rfl

/-- The left operand's row is the result's row. -/
theorem lhsIdx_row (hlb : d.lhsBatch = []) (hln : d.lhsNonContracting = [0]) (j : (⟨2, ![m, n]⟩ : Shape).Idx) (q : d.contr.Idx) :
    (d.lhsIdx j q 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's column is the result's column. -/
theorem rhsIdx_col (hlb : d.lhsBatch = []) (hrb : d.rhsBatch = []) (hln : d.lhsNonContracting = [0]) (hrn : d.rhsNonContracting = [1])
    (j : (⟨2, ![m, n]⟩ : Shape).Idx) (q : d.contr.Idx) :
    (d.rhsIdx j q 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- A `tpu.matmul` of an `[m, k]` by a `[k, n]` matrix, contracting the left operand's columns with the right
    operand's rows, into the zero tile: at `(p, q)` the sum over `c` of `lhs (p, c) * rhs (c, q)`. -/
theorem matmul_zero_ix2_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (hr : d.contr.rank = 1) (hs : d.contr.size ⟨0, by omega⟩ = k)
    (prec : Option ContractPrecision) (lhs : FVec Ideal ⟨2, ![m, k]⟩ φ₁) (rhs : FVec Ideal ⟨2, ![k, n]⟩ φ₂)
    (p : Fin m) (q : Fin n) :
    FloatOps.matmul d prec lhs rhs (constant ⟨2, ![m, n]⟩ .f32 0x00000000#32) (ix2 p q)
      = ∑ c : Fin k, lhs (ix2 p c) * rhs (ix2 c q) := by
  rw [Ideal.matmul_constant_zero_apply, ← Equiv.sum_comp (contrEquiv1 d k hr hs).symm]
  refine Finset.sum_congr rfl fun c _ => ?_
  have hc := contrEquiv1_symm_val d k hr hs c
  have el : d.lhsIdx (ix2 p q) ((contrEquiv1 d k hr hs).symm c) = ix2 p c := funext fun a => Fin.ext (by
    match a with
    | ⟨0, _⟩ => exact lhsIdx_row d hlb hln _ _
    | ⟨1, _⟩ => exact (d.lhsIdx_val_of_single hlc _ _).trans hc)
  have er : d.rhsIdx (ix2 p q) ((contrEquiv1 d k hr hs).symm c) = ix2 c q := funext fun a => Fin.ext (by
    match a with
    | ⟨0, _⟩ => exact (d.rhsIdx_val_of_single hrc _ _).trans hc
    | ⟨1, _⟩ => exact rhsIdx_col d hlb hrb hln hrn _ _)
  rw [el, er]

end Matmul

end Cert.LibIx2

end
-- ==== Proof.ArcPay.lean ====
/-
  One grid point's arithmetic, read entry by entry on the extended reals.

  At a grid point the body holds three tiles: the normalised batch `a` (512 × 512), a tile `w` of 2048 weight rows
  (2048 × 512) and the column of labels `l` (512 × 1). It scales weight row `q` by the reciprocal square root of
  `max (∑ₖ w(q,k)², ε²)`, multiplies the batch by the transposed scaled tile, and obtains the cosine of batch row `p`
  against tile row `q`:  cosT a w p q = ∑ₖ a(p,k) · (w(q,k) · rsqrt (max (∑ₖ' w(q,k')², ε²))).
  Column `q` of the tile is the class `2048·t + q` at grid point `t`; the tile's mask is "this class is row p's label".
  The label's cosine is extracted as the row sum of the masked cosines, the margin map is applied to that ONE number
  per row, and the output tile takes the margin value at the label's column and the plain cosine elsewhere, all times 32.

  Two facts are proved here. First the entry-by-entry reading of each stage. Second, that a row's masked sum IS the
  cosine at the label's column whenever that column lies in the tile: the other 2047 terms of the sum are the literal
  zero, whatever the tile holds in their rows. So entry (p,q) of the output tile is a function of batch row p, of
  weight row q alone, and of the label of p.
-/
import proofs.«101236_j19877108646226_2_alg».proof.Proof.Gen.KernelIdeal.Skeleton
import proofs.«101236_j19877108646226_2_alg».proof.Proof.LibZeroAccDots
import proofs.«101236_j19877108646226_2_alg».proof.Proof.LibIx2
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ArcPay

open Cert.KernelIdeal Cert.KernelIdeal.Gen Idealize.ShloMosaic Idealize.ShloMosaic.ValueIdx

/-- ε², the named constant of the row normalisation, as an extended real. -/
def epsSq : EReal := Named.named (F := Ideal) κ "eps_sq" (φ := .f32) 0x179ABE15#32

/-- The squared norm of row `q` of a weight tile. -/
def rowSq (w : Vec Ideal S2048x512 .f32) (q : Fin 2048) : EReal := ∑ k : Fin 512, w (ix2 q k) * w (ix2 q k)

/-- Entry `k` of the tile's row `q` after the row is scaled to unit length. -/
def wnT (w : Vec Ideal S2048x512 .f32) (q : Fin 2048) (k : Fin 512) : EReal :=
  w (ix2 q k) * Ideal.rsqrt (max (rowSq w q) epsSq)

/-- The cosine of batch row `p` against tile row `q`. -/
def cosT (a : Vec Ideal S512x512 .bf16) (w : Vec Ideal S2048x512 .f32) (p : Fin 512) (q : Fin 2048) : EReal :=
  ∑ k : Fin 512, a (ix2 p k) * wnT w q k

/-- A tile's row sum of squares is the lane sum of the squared tile. -/
theorem rowSq_apply (w : Vec Ideal S2048x512 .f32) (q : Fin 2048) (hacc : (0x00000000#32 : BitVec 32) = 0x00000000#32) :
    multiReduction (F := Ideal) .add [1] S2048 (mulf w w) 0x00000000#32 reduces_S2048x512_S2048 (.inl rfl) hacc (ix1 q) = rowSq w q :=
  Cert.LibIx2.multiReduction_add_lanes_apply (mulf w w) 0x00000000#32 reduces_S2048x512_S2048 (.inl rfl) hacc q

/-- The scaled tile, entry by entry. -/
theorem scaled_apply (w : Vec Ideal S2048x512 .f32) (q : Fin 2048) (k : Fin 512) :
    (mulf w (broadcastTo S2048x512 (rsqrt (maximumf (shapeCast S2048x1
        (multiReduction .add [1] S2048 (mulf w w) 0x00000000#32 reduces_S2048x512_S2048 (.inl rfl) rfl) shapeCasts_S2048_S2048x1)
        (broadcast S2048x1 (Named.named (F := Ideal) κ "eps_sq" (φ := .f32) 0x179ABE15#32)))) broadcasts_S2048x1_S2048x512)
      : FVec Ideal S2048x512 .f32) (ix2 q k) = wnT w q k := by
  refine (mulf_apply _ _ _).trans ?_
  refine congrArg (w (ix2 q k) * ·) ?_
  refine (Cert.LibIx2.broadcastTo_a1_ab_apply _ broadcasts_S2048x1_S2048x512 q k).trans ?_
  show Ideal.rsqrt (max (shapeCast S2048x1 _ shapeCasts_S2048_S2048x1 (ix2 q (0 : Fin 1))) epsSq) = Ideal.rsqrt (max (rowSq w q) epsSq)
  refine congrArg (fun z => Ideal.rsqrt (max z epsSq)) ?_
  exact (Cert.LibIx2.shapeCast_a_a1_apply _ shapeCasts_S2048_S2048x1 q 0).trans (rowSq_apply w q rfl)

/-- The cosine tile, entry by entry. -/
theorem pay2_apply (a : Vec Ideal S512x512 .bf16) (w : Vec Ideal S2048x512 .f32) (p : Fin 512) (q : Fin 2048) :
    k0_pay2 (F := Ideal) a w (ix2 p q) = cosT a w p q := by
  unfold k0_pay2
  refine (Cert.ZeroAccDots.rows_rows dot_S512x512_S2048x512_S512x2048_1_1_0_0_n_n rfl rfl rfl rfl rfl rfl rfl rfl none _ _ p q).trans ?_
  refine Finset.sum_congr rfl fun k _ => ?_
  rw [shapeCast_self]
  exact congrArg (a (ix2 p k) * ·) (scaled_apply w q k)

/-! ## The label mask -/

/-- The class that tile column `q` stands for at the grid point `i`, as the 32-bit word compared with the label. -/
def colWord (i : grid0.Coords) (q : Fin 2048) : BitVec 32 :=
  IntOp.addi (Scalar.muli (BitVec.ofNat 32 (i 0).val) 2048#32) (BitVec.ofNat 32 q.val)

/-- "Tile column `q` is the label of batch row `p`", one bit. -/
def maskT (i : grid0.Coords) (l : Vec Ideal S512x1 .i32) (p : Fin 512) (q : Fin 2048) : BitVec 1 :=
  IntOp.cmpi .eq (colWord i q) (l (ix2 p (0 : Fin 1)))

/-- The mask tile, entry by entry. -/
theorem pay3_apply (i : grid0.Coords) (l : Vec Ideal S512x1 .i32) (p : Fin 512) (q : Fin 2048) :
    k0_pay3 (F := Ideal) i l (ix2 p q) = maskT i l p q := by
  unfold k0_pay3
  show IntOp.cmpi .eq (IntOp.addi _ (iota .tc S512x2048 32 [1] iota_S512x2048_d1_w32 (ix2 p q)))
    (broadcastTo S512x2048 (shapeCast S512x1 l shapeCasts_S512x1_S512x1) broadcasts_S512x1_S512x2048 (ix2 p q)) = _
  rw [iota_single_apply, Cert.LibIx2.broadcastTo_a1_ab_apply, shapeCast_self]
  rfl

/-- Distinct tile columns stand for distinct classes: adding a fixed word is injective, and a column number is
    below 2³². -/
theorem colWord_inj (i : grid0.Coords) (q q' : Fin 2048) (h : colWord i q = colWord i q') : q = q' := by
  unfold colWord IntOp.addi at h
  have h2 : BitVec.ofNat 32 q.val = BitVec.ofNat 32 q'.val := (BitVec.add_right_inj _).mp h
  have h3 := congrArg BitVec.toNat h2
  simp only [BitVec.toNat_ofNat] at h3
  have := q.isLt; have := q'.isLt
  exact Fin.ext (by omega)

/-- An equality test that answers one compared equal words. -/
theorem eq_of_cmpi_eq_one {a b : BitVec 32} (h : IntOp.cmpi .eq a b = 1#1) : a = b := by
  by_contra hne
  have h0 : IntOp.cmpi .eq a b = 0#1 := by
    show BitVec.ofBool (a == b) = 0#1
    rw [beq_eq_false_iff_ne.mpr hne]; rfl
  rw [h0] at h; exact absurd h (by decide)

/-- A row has at most one masked column. -/
theorem mask_unique (i : grid0.Coords) (l : Vec Ideal S512x1 .i32) (p : Fin 512) (q q' : Fin 2048)
    (h : maskT i l p q = 1#1) (h' : maskT i l p q' = 1#1) : q' = q :=
  colWord_inj i q' q ((eq_of_cmpi_eq_one h').trans (eq_of_cmpi_eq_one h).symm)

/-! ## The label's cosine as a masked row sum -/

/-- The row sum of the masked cosines. -/
def lblCos (i : grid0.Coords) (a : Vec Ideal S512x512 .bf16) (w : Vec Ideal S2048x512 .f32) (l : Vec Ideal S512x1 .i32)
    (p : Fin 512) : EReal :=
  ∑ q : Fin 2048, Scalar.select (maskT i l p q) (cosT a w p q) (Ideal.ofBits .f32 0x00000000#32)

/-- Where the label's column lies in the tile, the masked row sum is the cosine at that column: every other term is
    the zero word. -/
theorem lblCos_of_mask (i : grid0.Coords) (a : Vec Ideal S512x512 .bf16) (w : Vec Ideal S2048x512 .f32)
    (l : Vec Ideal S512x1 .i32) (p : Fin 512) (q : Fin 2048) (h : maskT i l p q = 1#1) :
    lblCos i a w l p = cosT a w p q := by
  unfold lblCos
  rw [Finset.sum_eq_single q]
  · rw [h]; rfl
  · intro q' _ hne
    have hm : ¬ (maskT i l p q' = (1 : BitVec 1)) := fun h' => hne (mask_unique i l p q q' h h')
    show (if maskT i l p q' = (1 : BitVec 1) then cosT a w p q' else Ideal.ofBits .f32 0x00000000#32) = 0
    rw [if_neg hm]; exact Ideal.ofBits_zero_f32
  · intro hq; exact absurd (Finset.mem_univ q) hq

/-- The masked row sum as the body forms it, entry by entry. -/
theorem pay4_apply (i : grid0.Coords) (a : Vec Ideal S512x512 .bf16) (w : Vec Ideal S2048x512 .f32)
    (l : Vec Ideal S512x1 .i32) (p : Fin 512) (u : Fin 1) :
    k0_pay4 (F := Ideal) i a w l (ix2 p u) = lblCos i a w l p := by
  unfold k0_pay4
  refine (Cert.LibIx2.shapeCast_a_a1_apply _ shapeCasts_S512_S512x1 p u).trans ?_
  refine (Cert.LibIx2.multiReduction_add_lanes_apply (φ := .f32) _ 0x00000000#32 reduces_S512x2048_S512 (.inl rfl) rfl p).trans ?_
  refine Finset.sum_congr rfl fun q _ => ?_
  show Scalar.select (k0_pay3 (F := Ideal) i l (ix2 p q)) (k0_pay2 (F := Ideal) a w (ix2 p q)) (Ideal.ofBits .f32 0x00000000#32) = _
  rw [pay3_apply, pay2_apply]

/-! ## The margin and the output tile -/

/-- The margin map on one cosine `v`: `v·cos m − √(max(1 − v², 0))·sin m` where `v + cos m > 0`, else `v − mm`. -/
def marginT (v : EReal) : EReal :=
  Scalar.select (FloatOps.cmpf (F := Ideal) (φ := .f32) .ogt (v - Ideal.ofBits .f32 0xBF60A940#32) (Ideal.ofBits .f32 0x00000000#32))
    (v * Ideal.ofBits .f32 0x3F60A940#32
      - Ideal.sqrt (max (Ideal.ofBits .f32 0x3F800000#32 - v * v) (Ideal.ofBits .f32 0x00000000#32)) * Ideal.ofBits .f32 0x3EF57744#32)
    (v - Ideal.ofBits .f32 0x3E757744#32)

/-- The two branches of the margin and its test, each a pointwise expression of the masked row sum. -/
theorem pay5_apply (i : grid0.Coords) (a : Vec Ideal S512x512 .bf16) (w : Vec Ideal S2048x512 .f32)
    (l : Vec Ideal S512x1 .i32) (p : Fin 512) (u : Fin 1) :
    k0_pay5 (F := Ideal) i a w l (ix2 p u)
      = lblCos i a w l p * Ideal.ofBits .f32 0x3F60A940#32
        - Ideal.sqrt (max (Ideal.ofBits .f32 0x3F800000#32 - lblCos i a w l p * lblCos i a w l p) (Ideal.ofBits .f32 0x00000000#32))
          * Ideal.ofBits .f32 0x3EF57744#32 := by
  unfold k0_pay5
  show k0_pay4 (F := Ideal) i a w l (ix2 p u) * _ - Ideal.sqrt (max (_ - k0_pay4 (F := Ideal) i a w l (ix2 p u) * k0_pay4 (F := Ideal) i a w l (ix2 p u)) _) * _ = _
  rw [pay4_apply]
  rfl

theorem pay6_apply (i : grid0.Coords) (a : Vec Ideal S512x512 .bf16) (w : Vec Ideal S2048x512 .f32)
    (l : Vec Ideal S512x1 .i32) (p : Fin 512) (u : Fin 1) :
    k0_pay6 (F := Ideal) i a w l (ix2 p u)
      = FloatOps.cmpf (F := Ideal) (φ := .f32) .ogt (lblCos i a w l p - Ideal.ofBits .f32 0xBF60A940#32) (Ideal.ofBits .f32 0x00000000#32) := by
  unfold k0_pay6
  show FloatOps.cmpf (F := Ideal) (φ := .f32) .ogt (k0_pay4 (F := Ideal) i a w l (ix2 p u) - _) _ = _
  rw [pay4_apply]
  rfl

/-- The tile the body stores, as a function of what it loaded. -/
def outTile (i : grid0.Coords) (a : Vec Ideal S512x512 .bf16) (w : Vec Ideal S2048x512 .f32) (l : Vec Ideal S512x1 .i32) :
    FVec Ideal S512x2048 .f32 :=
  k0_pay1 (F := Ideal) (k0_pay2 a w) (k0_pay3 i l) (k0_pay4 i a w l) (k0_pay5 i a w l) (k0_pay6 i a w l) (Scalar.ofBits .f32 0x3E757744#32)

/-- The stored tile, entry by entry: the margin of the masked row sum at the masked column, the cosine elsewhere. -/
theorem outTile_apply_sum (i : grid0.Coords) (a : Vec Ideal S512x512 .bf16) (w : Vec Ideal S2048x512 .f32)
    (l : Vec Ideal S512x1 .i32) (p : Fin 512) (q : Fin 2048) :
    outTile i a w l (ix2 p q)
      = Scalar.select (maskT i l p q) (marginT (lblCos i a w l p) * Ideal.ofBits .f32 0x42000000#32)
          (cosT a w p q * Ideal.ofBits .f32 0x42000000#32) := by
  unfold outTile k0_pay1
  show Scalar.select (k0_pay3 (F := Ideal) i l (ix2 p q))
      (broadcastTo S512x2048 (shapeCast S512x1 _ shapeCasts_S512x1_S512x1) broadcasts_S512x1_S512x2048 (ix2 p q))
      (k0_pay2 (F := Ideal) a w (ix2 p q) * _) = _
  rw [pay3_apply, pay2_apply, Cert.LibIx2.broadcastTo_a1_ab_apply, shapeCast_self]
  show Scalar.select _ (Scalar.select (k0_pay6 (F := Ideal) i a w l (ix2 p (0 : Fin 1))) (k0_pay5 (F := Ideal) i a w l (ix2 p (0 : Fin 1)))
      (k0_pay4 (F := Ideal) i a w l (ix2 p (0 : Fin 1)) - _) * _) _ = _
  rw [pay6_apply, pay5_apply, pay4_apply]
  rfl

/-- The stored tile, entry by entry, through the cosine of its own column alone: at the masked column the masked row
    sum IS that column's cosine. -/
theorem outTile_apply (i : grid0.Coords) (a : Vec Ideal S512x512 .bf16) (w : Vec Ideal S2048x512 .f32)
    (l : Vec Ideal S512x1 .i32) (p : Fin 512) (q : Fin 2048) :
    outTile i a w l (ix2 p q)
      = Scalar.select (maskT i l p q) (marginT (cosT a w p q) * Ideal.ofBits .f32 0x42000000#32)
          (cosT a w p q * Ideal.ofBits .f32 0x42000000#32) := by
  rw [outTile_apply_sum]
  by_cases h : maskT i l p q = (1 : BitVec 1)
  · rw [lblCos_of_mask i a w l p q h]
  · show (if maskT i l p q = (1 : BitVec 1) then _ else _) = (if maskT i l p q = (1 : BitVec 1) then _ else _)
    rw [if_neg h, if_neg h]

/-- A cosine reads one row of the weight tile. -/
theorem cosT_congr (a : Vec Ideal S512x512 .bf16) (w w' : Vec Ideal S2048x512 .f32) (p : Fin 512) (q : Fin 2048)
    (h : ∀ k : Fin 512, w (ix2 q k) = w' (ix2 q k)) : cosT a w p q = cosT a w' p q := by
  have hs : rowSq w q = rowSq w' q := Finset.sum_congr rfl fun k _ => by rw [h k]
  unfold cosT wnT
  exact Finset.sum_congr rfl fun k _ => by rw [h k, hs]

/-- So entry `(p, q)` of the stored tile does not depend on the other rows of the weight tile. -/
theorem outTile_congr (i : grid0.Coords) (a : Vec Ideal S512x512 .bf16) (w w' : Vec Ideal S2048x512 .f32)
    (l : Vec Ideal S512x1 .i32) (p : Fin 512) (q : Fin 2048) (h : ∀ k : Fin 512, w (ix2 q k) = w' (ix2 q k)) :
    outTile i a w l (ix2 p q) = outTile i a w' l (ix2 p q) := by
  rw [outTile_apply, outTile_apply, cosT_congr a w w' p q h]

end Cert.ArcPay

end
-- ==== Proof.ArcDat.lean ====
/-
  The proof data of the idealized kernel's one pipeline, on the extended reals.

  Forty-two grid points; point `t` holds the whole normalised batch (fetched once), weight rows `2048·t … 2048·t+2047`
  (fetched at every point) and the label column (fetched once), and writes back output columns `2048·t … 2048·t+2047`.
  The array has 84281 = 41·2048 + 313 rows, so at the last point only 313 rows of the weight tile come from the array
  and only 313 columns of the output tile are written back; the other rows of the tile hold contents nothing names.
  After the body each input buffer holds what it held, and the output buffer holds the tile computed from the batch,
  the weight tile and the labels. Its entry `(p, q)` reads weight row `q` only, so its columns inside the array do not
  depend on the tile's rows past the array's end: that is what lets the data name it (with those rows read as zero).
-/
import proofs.«101236_j19877108646226_2_alg».proof.Proof.Gen.KernelIdeal.Frame
import proofs.«101236_j19877108646226_2_alg».proof.Proof.ArcPay

set_option maxRecDepth 16384

noncomputable section

namespace Cert.ArcDat

open Cert.KernelIdeal Cert.KernelIdeal.Gen Cert.ArcPay
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- The weight tile of point `t`: the array's rows inside it, zero in the rows past the array's end. -/
def wTile (c : Dev nD) (t : Fin cfg0.N) : S2048x512.Idx → EReal :=
  win0_1.fill (grid0.coords t) (fun _ => (0 : EReal)) (iblk (F := Ideal) m c 1 t)

/-- The output tile of point `t`: the body's arithmetic on the batch, that weight tile and the labels. -/
def oTile (c : Dev nD) (t : Fin cfg0.N) : S512x2048.Idx → EReal :=
  outTile (grid0.coords t) (iblk (F := Ideal) m c 0 t) (wTile m c t) (iblk (F := Ideal) m c 2 t)

/-- The proof data on device `c`: the arrays as the region finds them; after the body the three input buffers at
    their blocks and the output buffer at the output tile; the class's invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk (F := Ideal) m c 0 t
    | ⟨1, _⟩ => wTile m c t
    | ⟨2, _⟩ => iblk (F := Ideal) m c 2 t
    | ⟨3, _⟩ => oTile m c t
  Φ _ := Pipeline.ΦA spec0 c
  q _ := fullShare
  owed _ := 0

/-- The kernel's variants: none. -/
abbrev 𝒱₀ : Variants := Variants.none

/-! ## What the body finds -/

theorem before_0 (c : Dev nD) (t : Fin cfg0.N) (d) : (dats m 0 c).before (0 : Fin 4) t d = iblk (F := Ideal) m c 0 t :=
  before0_0_of m (dats m 0 c) rfl (fun _ => rfl) t d

theorem before_2 (c : Dev nD) (t : Fin cfg0.N) (d) : (dats m 0 c).before (2 : Fin 4) t d = iblk (F := Ideal) m c 2 t :=
  before0_2_of m (dats m 0 c) rfl (fun _ => rfl) t d

/-- The weight buffer, fetched at every point: its block on the rows inside the array, `d` past them. -/
theorem before_1 (c : Dev nD) (t : Fin cfg0.N) (d) :
    (dats m 0 c).before (1 : Fin 4) t d = win0_1.fill (grid0.coords t) d (iblk (F := Ideal) m c 1 t) := by
  unfold Dat.before; rw [if_pos (fetch0_1 t)]; rfl

/-- The output buffer, written back at every point: contents nothing names. -/
theorem before_3 (c : Dev nD) (t : Fin cfg0.N) (d) : (dats m 0 c).before (3 : Fin 4) t d = d := by
  refine (dats m 0 c).before_out_reset (3 : Fin 4) rfl t ?_ d
  by_cases h : t.val = 0
  · exact .inl h
  · exact .inr ⟨h, flush0_3 _⟩

end Cert.ArcDat

end
-- ==== Proof.ArcCut.lean ====
/-
  How the tiles sit in the arrays, decided once over the 42 grid points, and the one consequence the body's
  obligation needs: the output tile's columns inside the array are computed from weight rows inside the array.
-/
import proofs.«101236_j19877108646226_2_alg».proof.Proof.ArcDat

set_option maxRecDepth 16384

noncomputable section

namespace Cert.ArcDat

open Cert.KernelIdeal Cert.KernelIdeal.Gen Cert.ArcPay
open Idealize.ShloMosaic Idealize.ShloMosaic.TcCoe Idealize.ShloMosaic.ValueIdx
open Idealize.SL Idealize.SL.Sem
open Idealize.ShloMosaic.Pipeline (Dat Cfg Window)

/-- At every point the weight tile has as many rows inside the array as the output tile has columns inside it, and
    all of its 512 columns; the output tile has all of its 512 rows. -/
theorem sizes_facts : ∀ t : Fin cfg0.N,
    win0_1.xsize (grid0.coords t) 0 = win0_3.xsize (grid0.coords t) 1 ∧ win0_1.xsize (grid0.coords t) 1 = 512
    ∧ win0_3.xsize (grid0.coords t) 0 = 512 ∧ win0_3.xsize (grid0.coords t) 1 = min 2048 (84281 - t.val * 2048) :=
  (by decide +kernel : ∀ t : Fin grid0.N, _)

/-- Where the tiles start: the weight tile at row block `t`, the output tile at column block `t`, the batch and
    the labels at the origin. -/
theorem index_facts : ∀ t : Fin cfg0.N,
    win0_0.index t 0 = 0 ∧ win0_0.index t 1 = 0 ∧ win0_1.index t 0 = t.val ∧ win0_1.index t 1 = 0
    ∧ win0_2.index t 0 = 0 ∧ win0_2.index t 1 = 0 ∧ win0_3.index t 0 = 0 ∧ win0_3.index t 1 = t.val :=
  (by decide +kernel : ∀ t : Fin grid0.N, _)

/-- Two weight tiles that hold the same block on the rows inside the array give output tiles with the same columns
    inside the array. -/
theorem cut_outTile (t : Fin cfg0.N) (a : Vec Ideal S512x512 .bf16) (l : Vec Ideal S512x1 .i32)
    (g : (win0_1.xblock (grid0.coords t)).Idx → EReal) (d d' : S2048x512.Idx → EReal) :
    win0_3.cut (grid0.coords t) (outTile (grid0.coords t) a (win0_1.fill (grid0.coords t) d g) l)
      = win0_3.cut (grid0.coords t) (outTile (grid0.coords t) a (win0_1.fill (grid0.coords t) d' g) l) := by
  funext j
  obtain ⟨p, q, hpq⟩ : ∃ (p : Fin 512) (q : Fin 2048), (win0_3.xinj (grid0.coords t) j : S512x2048.Idx) = ix2 p q :=
    ⟨_, _, eq_ix2 _⟩
  show outTile _ a _ l (win0_3.xinj (grid0.coords t) j) = outTile _ a _ l (win0_3.xinj (grid0.coords t) j)
  rw [hpq]
  refine outTile_congr _ a _ _ l p q fun k => ?_
  have hq : q.val = (j 1).val := (congrArg (fun f : S512x2048.Idx => (f 1).val) hpq).symm
  have hmv : win0_1.moved (grid0.coords t) (ix2 q k : S2048x512.Idx) = true :=
    (win0_1.moved_iff (grid0.coords t) _).mpr fun ax => by
      match ax with
      | ⟨0, _⟩ =>
        show q.val < win0_1.xsize (grid0.coords t) 0
        rw [(sizes_facts t).1, hq]; exact (j 1).isLt
      | ⟨1, _⟩ =>
        show k.val < win0_1.xsize (grid0.coords t) 1
        rw [(sizes_facts t).2.1]; exact k.isLt
  unfold Window.fill
  rw [dif_pos hmv, dif_pos hmv]

end Cert.ArcDat

end
-- ==== Proof.BodyIdeal.lean ====
/-
  The kernel body's triple, for any float instance: on four WHOLE staging memrefs — the normalised activations'
  (bf16[512, 512]), the weight block's (f32[2048, 512]), the labels' (i32[512, 1]) and the output block's
  (f32[512, 2048]) — the body loads the first three whole, computes, and overwrites the fourth whole with one
  unmasked store. So the first three buffers are handed back as found, and the fourth holds the store's payload
  as a function of what the three loads read (`outPay`), whatever it held before.

  Two facts about whole-buffer accesses carry it, both true at any shape: a load through the rectangle at zero
  offsets of the buffer's own sizes reads the buffer's contents, and one unmasked store through it leaves its
  payload.
-/
import proofs.«101236_j19877108646226_2_alg».proof.Proof.Gen.KernelIdeal.Launch
import proofs.«101236_j19877108646226_2_alg».proof.Proof.Gen.KernelIdeal.Skeleton
import proofs.«101236_j19877108646226_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdealBody

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## Whole-buffer accesses -/

/-- One unmasked store through the whole-shape rectangle at zero offsets leaves its payload, whatever the buffer
    held before. -/
theorem read_writes_unit_zero {sg : RefSig} {κ : Kind} {sp : Space} {S : Shape} {e : EltTy} {Val : EltTy → Type}
    [∀ e, Nonempty (Val e)] (v : View sg κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

/-- A load through that rectangle reads the buffer's contents. -/
theorem readAt_unit_zero' {sg : RefSig} {κ : Kind} {sp : Space} {S : Shape} {e : EltTy} {Val : EltTy → Type}
    (v : View sg κ sp S e) (f : v.ty.Contents Val) {off : Fin S.rank → Nat}
    (h : off = fun _ => 0) (inb : ∀ a, off a + S.size a ≤ S.size a) :
    v.readAt Val (Rect.unit off S.size inb).toLoadRect f = v.read Val f :=
  View.ld_unit_zero h inb _

/-- The printed zero offsets of a rank-2 access are the constant zero. -/
theorem zeros2 : (![0, 0] : Fin 2 → Nat) = fun _ => 0 := funext fun a => by fin_cases a <;> rfl

/-! ## What the body stores -/

/-- The output block the body stores, from what its three loads read — the activations `X0` (already normalised),
    the weight block `X1` and the labels `X2`: `32 ·` the products of `X0`'s rows with `X1`'s rows normalised,
    and, in a row whose label column lies in the block, `32 ·` the margin-adjusted cosine there instead. -/
def outPay (i : grid0.Coords) (X0 : Vec F S512x512 .bf16) (X1 : Vec F S2048x512 .f32) (X2 : Vec F S512x1 .i32) :
    FVec F S512x2048 .f32 :=
  Gen.k0_pay1 (Gen.k0_pay2 X0 X1) (Gen.k0_pay3 i X2) (Gen.k0_pay4 i X0 X1 X2) (Gen.k0_pay5 i X0 X1 X2)
    (Gen.k0_pay6 i X0 X1 X2) (Scalar.ofBits .f32 0x3E757744#32)

/-! ## The body's triple -/

set_option maxHeartbeats 1000000 in
/-- The kernel body on whole staging memrefs, the three inputs' at read contents `X0`, `X1`, `X2` and the output's
    at anything: it runs to the continuation holding the inputs' buffers as they were and the output's at
    `outPay i X0 X1 X2`. -/
theorem sound_kernel (c : Dev nD) (E : Set ℕ) (i : grid0.Coords)
    (arg1 : Memref sig .tc .vmem S512x512 .bf16) (harg1 : arg1.IsWhole)
    (arg2 : Memref sig .tc .vmem S2048x512 .f32) (harg2 : arg2.IsWhole)
    (arg3 : Memref sig .tc .vmem S512x1 .i32) (harg3 : arg3.IsWhole)
    (arg4 : Memref sig .tc .vmem S512x2048 .f32) (harg4 : arg4.IsWhole)
    (X0 : Vec F S512x512 .bf16) (X1 : Vec F S2048x512 .f32) (X2 : Vec F S512x1 .i32) (K : PUnit → sProp 𝕄) :
    iprop(owns (c : Thread nD τ) arg1 fullShare X0 ∗ owns (c : Thread nD τ) arg2 fullShare X1
        ∗ owns (c : Thread nD τ) arg3 fullShare X2 ∗ (∃ d, owns (c : Thread nD τ) arg4 fullShare d)
        ∗ (iprop(owns (c : Thread nD τ) arg1 fullShare X0 ∗ owns (c : Thread nD τ) arg2 fullShare X1
            ∗ owns (c : Thread nD τ) arg3 fullShare X2 ∗ owns (c : Thread nD τ) arg4 fullShare (outPay i X0 X1 X2)) -∗ K ⟨⟩))
      ⊢ wp frame (wpE (defs₀ (F := F)) Variants.none c none) E
          (cc0__arcmargin_kernel i arg1 harg1 arg2 harg2 arg3 harg3 arg4 harg4) K := by
  simp only [cc0__arcmargin_kernel_eq_skeleton]; unfold cc0__arcmargin_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the one store is through the whole buffer: it leaves its payload; each load was through the whole buffer: it
  -- read the contents
  refine (read_writes_unit_zero arg4.view f3 zeros2 inb_S512x2048_S512x2048_0_0 _).trans ?_
  rw [readAt_unit_zero' arg1.view f0 zeros2 inb_S512x512_S512x512_0_0,
    readAt_unit_zero' arg2.view f1 zeros2 inb_S2048x512_S2048x512_0_0,
    readAt_unit_zero' arg3.view f2 zeros2 inb_S512x1_S512x1_0_0]
  rfl

end Cert.KernelIdealBody
-- ==== Proof.ArcOblig.lean ====
/-
  The body's obligation at each of the 42 points, on the extended reals: from the body's triple (three whole loads,
  the arithmetic, one whole store) and the fact that the output tile's columns inside the array do not depend on the
  weight tile's rows past the array's end.
-/
import proofs.«101236_j19877108646226_2_alg».proof.Proof.ArcCut
import proofs.«101236_j19877108646226_2_alg».proof.Proof.BodyIdeal
import Idealize.ShloMosaic.Lib.Pipeline.FrameBody
import Idealize.ShloMosaic.Lib.Tactic

set_option maxRecDepth 16384

noncomputable section

namespace Cert.ArcDat

open Cert.KernelIdeal Cert.KernelIdeal.Gen Cert.ArcPay Cert.KernelIdealBody
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The library's body obligation at point `t`. The batch, weight and label buffers arrive holding their blocks (the
    weight buffer filled out with contents `d` past the array's end) and leave as they came; the output buffer arrives
    holding anything and leaves holding the tile computed from what the other three hold. Of that tile only the
    columns inside the array are stated, and those do not depend on `d`. -/
theorem body_obligation (c : Dev nD) : BodyObligationLoose (dats m 0 c) (defs₀ (F := Ideal)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2, before_3 m c t d3]
  iapply (sound_kernel (F := Ideal) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (iblk (F := Ideal) m c 0 t) (win0_1.fill (grid0.coords t) d1 (iblk (F := Ideal) m c 1 t)) (iblk (F := Ideal) m c 2 t) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]; · iexact H0
  isplitl [H1]
  · iexists d1
    have h1 : win0_1.cut (grid0.coords t) (wTile m c t) = iblk (F := Ideal) m c 1 t := win0_1.cut_fill _ _ _
    change _ ⊢ owns (c : Thread nD τ) (win0_1.stage (cfg0.slots t 1)) fullShare
      (win0_1.fill (grid0.coords t) d1 (win0_1.cut (grid0.coords t) (wTile m c t)))
    rw [h1]; try iexact H1
  isplitl [H2]; · iexact H2
  · have hpay : outPay (F := Ideal) (grid0.coords t) (iblk (F := Ideal) m c 0 t) (win0_1.fill (grid0.coords t) d1 (iblk (F := Ideal) m c 1 t)) (iblk (F := Ideal) m c 2 t)
        = outTile (grid0.coords t) (iblk (F := Ideal) m c 0 t) (win0_1.fill (grid0.coords t) d1 (iblk (F := Ideal) m c 1 t)) (iblk (F := Ideal) m c 2 t) := rfl
    rw [hpay]
    have hcut := cut_outTile t (iblk (F := Ideal) m c 0 t) (iblk (F := Ideal) m c 2 t) (iblk (F := Ideal) m c 1 t) (fun _ => (0 : EReal)) d1
    iexists outTile (grid0.coords t) (iblk (F := Ideal) m c 0 t) (win0_1.fill (grid0.coords t) d1 (iblk (F := Ideal) m c 1 t)) (iblk (F := Ideal) m c 2 t)
    dsimp only [dats]
    have hfill : (win0 3).fill (grid0.coords t)
          (outTile (grid0.coords t) (iblk (F := Ideal) m c 0 t) (win0_1.fill (grid0.coords t) d1 (iblk (F := Ideal) m c 1 t)) (iblk (F := Ideal) m c 2 t))
          ((win0 3).cut (grid0.coords t) (oTile m c t))
        = outTile (grid0.coords t) (iblk (F := Ideal) m c 0 t) (win0_1.fill (grid0.coords t) d1 (iblk (F := Ideal) m c 1 t)) (iblk (F := Ideal) m c 2 t) :=
      (congrArg (win0_3.fill (grid0.coords t) _) hcut).trans (win0_3.fill_cut _ _)
    rw [hfill]; try iexact H3

end Cert.ArcDat

end
-- ==== Proof.ArcWhole.lean ====
/-
  From the 42 output tiles to the whole output array.

  Point `t` writes back columns `2048·t … 2048·t + 2047` of the output (at the last point the 313 columns the array
  has left). Entry `(p, q)` of its tile is the margin head's value for batch row `p` and class `2048·t + q`, computed
  from row `2048·t + q` of the weight array; so every tile is its block of ONE function `GA` of the whole arrays the
  region reads: the normalised batch, the weights and the label column. The 42 blocks cover every index of the
  output exactly, so the array ends holding `GA`.
-/
import proofs.«101236_j19877108646226_2_alg».proof.Proof.ArcCut

set_option maxRecDepth 16384

noncomputable section

open scoped BigOperators

namespace Cert.ArcDat

open Cert.KernelIdeal Cert.KernelIdeal.Gen Cert.ArcPay
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The whole-array function -/

/-- The cosine of batch row `p` against row `r` of the whole weight array, the row scaled by the reciprocal square
    root of `max (its squared norm, ε²)`. -/
def cosA (X0 : S512x512.Idx → EReal) (X1 : S84281x512.Idx → EReal) (p : Fin 512) (r : Fin 84281) : EReal :=
  ∑ k : Fin 512, X0 (ix2 p k) * (X1 (ix2 r k) * Ideal.rsqrt (max (∑ k' : Fin 512, X1 (ix2 r k') * X1 (ix2 r k')) epsSq))

/-- The margin head over whole arrays: at `(p, r)` the margin of the cosine where `r` is row `p`'s label, the cosine
    elsewhere, times 32. -/
def GA (X0 : S512x512.Idx → EReal) (X1 : S84281x512.Idx → EReal) (X2 : S512x1.Idx → BitVec 32) : S512x84281.Idx → EReal :=
  fun i => Scalar.select (IntOp.cmpi .eq (BitVec.ofNat 32 (i 1).val) (X2 (ix2 (i 0) (0 : Fin 1))))
    (marginT (cosA X0 X1 (i 0) (i 1)) * Ideal.ofBits .f32 0x42000000#32)
    (cosA X0 X1 (i 0) (i 1) * Ideal.ofBits .f32 0x42000000#32)

/-! ## The tiles, read off the arrays -/

/-- The grid is one axis: a point's one coordinate is its number. -/
theorem coord_facts : ∀ t : Fin cfg0.N, (grid0.coords t 0).val = t.val :=
  (by decide +kernel : ∀ t : Fin grid0.N, _)

/-- The batch tile is the whole batch array. -/
theorem tile0_apply (c : Dev nD) (t : Fin cfg0.N) (p k : Fin 512) :
    iblk (F := Ideal) m c 0 t (ix2 p k) = V m c main_v5 (ix2 p k) := by
  show V m c main_v5 (((cfg0.win 0).blk t).view.emb (ix2 p k)) = V m c main_v5 (ix2 p k)
  refine congrArg (V m c main_v5) (funext fun a => Fin.ext ?_)
  obtain ⟨e0, e1, -⟩ := index_facts t
  match a with
  | ⟨0, _⟩ => show win0_0.index t 0 * 512 + 1 * p.val = p.val; rw [e0]; omega
  | ⟨1, _⟩ => show win0_0.index t 1 * 512 + 1 * k.val = k.val; rw [e1]; omega

/-- The label tile is the whole label column. -/
theorem tile2_apply (c : Dev nD) (t : Fin cfg0.N) (p : Fin 512) (u : Fin 1) :
    iblk (F := Ideal) m c 2 t (ix2 p u) = V m c main_v6 (ix2 p u) := by
  show V m c main_v6 (((cfg0.win 2).blk t).view.emb (ix2 p u)) = V m c main_v6 (ix2 p u)
  refine congrArg (V m c main_v6) (funext fun a => Fin.ext ?_)
  obtain ⟨-, -, -, -, e0, e1, -⟩ := index_facts t
  match a with
  | ⟨0, _⟩ => show win0_2.index t 0 * 512 + 1 * p.val = p.val; rw [e0]; omega
  | ⟨1, _⟩ => show win0_2.index t 1 * 1 + 1 * u.val = u.val; rw [e1]; omega

/-- Row `q` of the weight tile, where it lies inside the array, is row `2048·t + q` of the weight array. -/
theorem tile1_apply (c : Dev nD) (t : Fin cfg0.N) (q : Fin 2048) (k : Fin 512) (r : Fin 84281)
    (hq : q.val < win0_1.xsize (grid0.coords t) 0) (hr : r.val = t.val * 2048 + q.val) :
    wTile m c t (ix2 q k) = V m c main_arg1 (ix2 r k) := by
  have hmv : win0_1.moved (grid0.coords t) (ix2 q k : S2048x512.Idx) = true :=
    (win0_1.moved_iff (grid0.coords t) _).mpr fun ax => by
      match ax with
      | ⟨0, _⟩ => exact hq
      | ⟨1, _⟩ => show k.val < win0_1.xsize (grid0.coords t) 1; rw [(sizes_facts t).2.1]; exact k.isLt
  unfold wTile Window.fill
  rw [dif_pos hmv]
  show V m c main_arg1 (((cfg0.win 1).blk t).view.emb _) = V m c main_arg1 (ix2 r k)
  refine congrArg (V m c main_arg1) (funext fun a => Fin.ext ?_)
  obtain ⟨-, -, e0, e1, -⟩ := index_facts t
  match a with
  | ⟨0, _⟩ => show win0_1.index t 0 * 2048 + 1 * q.val = r.val; rw [e0, hr]; omega
  | ⟨1, _⟩ => show win0_1.index t 1 * 512 + 1 * k.val = k.val; rw [e1]; omega

end Cert.ArcDat

end
-- ==== Proof.ArcFinal.lean ====
/-
  What a point writes back is its block of the whole-array function, the blocks cover the output, and so the output
  array ends holding that function.
-/
import proofs.«101236_j19877108646226_2_alg».proof.Proof.ArcWhole

set_option maxRecDepth 16384

noncomputable section

open scoped BigOperators

namespace Cert.ArcDat

open Cert.KernelIdeal Cert.KernelIdeal.Gen Cert.ArcPay
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The class of tile column `q` at point `t` is the number `2048·t + q`, as a 32-bit word. -/
theorem colWord_eq (t : Fin cfg0.N) (q : Fin 2048) :
    colWord (grid0.coords t) q = BitVec.ofNat 32 (t.val * 2048 + q.val) := by
  unfold colWord
  rw [coord_facts t, BitVec.ofNat_add, BitVec.ofNat_mul]
  rfl

/-- A tile's cosine is the whole arrays' cosine, once the batch tile's row `p` and the weight tile's row `q` are known
    to be row `p` of the batch array and row `r` of the weight array. -/
theorem cosT_eq_cosA_of (a : Vec Ideal S512x512 .bf16) (wt : Vec Ideal S2048x512 .f32)
    (X0 : S512x512.Idx → EReal) (X1 : S84281x512.Idx → EReal) (p : Fin 512) (q : Fin 2048) (r : Fin 84281)
    (h0 : ∀ k : Fin 512, a (ix2 p k) = X0 (ix2 p k)) (h1 : ∀ k : Fin 512, wt (ix2 q k) = X1 (ix2 r k)) :
    cosT a wt p q = cosA X0 X1 p r := by
  have hs : rowSq wt q = ∑ k' : Fin 512, X1 (ix2 r k') * X1 (ix2 r k') :=
    Finset.sum_congr rfl fun k _ => by rw [h1 k]
  unfold cosT wnT cosA
  exact Finset.sum_congr rfl fun k _ => by rw [h0 k, h1 k, hs]

/-- At point `t`: tile row `q` inside the array is row `2048·t + q` of the weight array. -/
theorem cosT_eq_cosA (c : Dev nD) (t : Fin cfg0.N) (p : Fin 512) (q : Fin 2048) (r : Fin 84281)
    (hq : q.val < win0_1.xsize (grid0.coords t) 0) (hr : r.val = t.val * 2048 + q.val) :
    cosT (iblk (F := Ideal) m c 0 t) (wTile m c t) p q = cosA (V m c main_v5) (V m c main_arg1) p r :=
  cosT_eq_cosA_of _ _ (V m c main_v5) (V m c main_arg1) p q r (fun k => tile0_apply m c t p k)
    (fun k => tile1_apply m c t q k r hq hr)

/-- WHAT POINT `t` WRITES BACK is block `t` of `GA` of the arrays as the region finds them. -/
theorem flushed_eq (c : Dev nD) (t : Fin cfg0.N) :
    (dats m 0 c).flushed (3 : Fin 4) t
      = ((cfg0.win 3).blk t).view.read (Elt Ideal) (GA (V m c main_v5) (V m c main_arg1) (V m c main_v6)) := by
  funext j
  obtain ⟨hs13, -, hs30, hs31⟩ := sizes_facts t
  obtain ⟨-, -, -, -, -, -, e0, e1⟩ := index_facts t
  have hj0 : (j 0).val < 512 := hs30 ▸ (j 0).isLt
  have hj1 : (j 1).val < win0_3.xsize (grid0.coords t) 1 := (j 1).isLt
  have hj1' : (j 1).val < 2048 := lt_of_lt_of_le hj1 (win0_3.xsize_le _ 1)
  have hr : t.val * 2048 + (j 1).val < 84281 := by rw [hs31] at hj1; omega
  -- the tile's entry, and the array index it is written to
  have hx : (win0_3.xinj (grid0.coords t) j : S512x2048.Idx) = ix2 ⟨(j 0).val, hj0⟩ ⟨(j 1).val, hj1'⟩ :=
    funext fun a => Fin.ext (by match a with | ⟨0, _⟩ => rfl | ⟨1, _⟩ => rfl)
  have he : (((cfg0.win 3).blk t).view.emb j : S512x84281.Idx) = ix2 ⟨(j 0).val, hj0⟩ ⟨t.val * 2048 + (j 1).val, hr⟩ :=
    funext fun a => Fin.ext (by
      match a with
      | ⟨0, _⟩ => show win0_3.index t 0 * 512 + 1 * (j 0).val = (j 0).val; rw [e0]; omega
      | ⟨1, _⟩ => show win0_3.index t 1 * 2048 + 1 * (j 1).val = t.val * 2048 + (j 1).val; rw [e1]; omega)
  show oTile m c t (win0_3.xinj (grid0.coords t) j) = GA _ _ _ (((cfg0.win 3).blk t).view.emb j)
  rw [hx, he]
  unfold oTile
  rw [outTile_apply]
  show _ = Scalar.select (IntOp.cmpi .eq (BitVec.ofNat 32 (t.val * 2048 + (j 1).val)) (V m c main_v6 (ix2 ⟨(j 0).val, hj0⟩ (0 : Fin 1)))) _ _
  rw [cosT_eq_cosA m c t ⟨(j 0).val, hj0⟩ ⟨(j 1).val, hj1'⟩ ⟨t.val * 2048 + (j 1).val, hr⟩ (hs13 ▸ hj1) rfl]
  unfold maskT
  rw [colWord_eq, tile2_apply]

/-- An index of the output is in point `t`'s block iff each coordinate is in the block's range inside the array. -/
theorem mem_blk (t : Fin cfg0.N) (i : S512x84281.Idx) :
    i ∈ ((cfg0.win 3).blk t).view.set ↔ ∀ a : Fin 2, win0_3.index t a * S512x2048.size a ≤ (i a).val
      ∧ (i a).val < win0_3.index t a * S512x2048.size a + win0_3.xsize (grid0.coords t) a := by
  show i ∈ ((View.whole main_v7).slice (win0_3.rect t)).set ↔ _
  rw [View.set_slice_whole, Rect.mem_set_unit]
  exact Iff.rfl

/-- Every index of the output lies in the block of the point numbered by its column divided by 2048. -/
theorem covered (i : S512x84281.Idx) :
    ∃ t : Fin cfg0.N, (cfg0.win 3).flush t = true ∧ i ∈ ((cfg0.win 3).blk t).view.set := by
  have hi0 : (i 0).val < 512 := (i 0).isLt
  have hi1 : (i 1).val < 84281 := (i 1).isLt
  refine ⟨⟨(i 1).val / 2048, by show _ < grid0.N; rw [N_0]; omega⟩, flush0_3 _, ?_⟩
  rw [mem_blk]
  obtain ⟨-, -, hs30, hs31⟩ := sizes_facts ⟨(i 1).val / 2048, by show _ < grid0.N; rw [N_0]; omega⟩
  obtain ⟨-, -, -, -, -, -, e0, e1⟩ := index_facts ⟨(i 1).val / 2048, by show _ < grid0.N; rw [N_0]; omega⟩
  intro a
  match a with
  | ⟨0, _⟩ =>
    show win0_3.index _ 0 * 512 ≤ (i 0).val ∧ (i 0).val < win0_3.index _ 0 * 512 + win0_3.xsize _ 0
    rw [e0, hs30]; omega
  | ⟨1, _⟩ =>
    show win0_3.index _ 1 * 2048 ≤ (i 1).val ∧ (i 1).val < win0_3.index _ 1 * 2048 + win0_3.xsize _ 1
    rw [e1, hs31]
    show (i 1).val / 2048 * 2048 ≤ (i 1).val ∧ (i 1).val < (i 1).val / 2048 * 2048 + min 2048 (84281 - (i 1).val / 2048 * 2048)
    omega

/-- THE OUTPUT ARRAY after the write-backs of all 42 points. -/
theorem final (c : Dev nD) :
    (dats m 0 c).arrAt (3 : Fin 4) cfg0.N = GA (V m c main_v5) (V m c main_arg1) (V m c main_v6) :=
  (dats m 0 c).arrAt_eq_of_cover (3 : Fin 4) _ (fun t _ => flushed_eq m c t) covered

end Cert.ArcDat

end
-- ==== Proof.ArcSpec.lean ====
/- The ArcFace margin head, index by index, over the extended reals: each row of `x` and of `w` divided by the
   larger of its Euclidean norm and a floor `eps`, the cosines of the normalised rows, the additive angular margin
   applied to the cosine of the labelled class, the whole scaled by 32. No program is imported: these are the
   formulas both sides of the certificate are compared with. -/
import Idealize.ShloMosaic.PureOps.Ideal
import Idealize.ShloMosaic.PureOps.Ideal.Laws
import Idealize.ShloMosaic.Lib.ValueIdx
import Mathlib

noncomputable section

open scoped BigOperators

namespace Cert.Arc

open Idealize.ShloMosaic Idealize.ShloMosaic.ValueIdx

/-- The norm floor `eps`, the word `0x2B8CBCCC`. -/
abbrev epsW : EReal := FloatOps.ofBits (F := Ideal) .f32 0x2B8CBCCC#32
/-- The word of `+0.0`, the initial value of each sum of squares. -/
abbrev zeroW : EReal := FloatOps.ofBits (F := Ideal) .f32 0x00000000#32

/-- The normalised `x`: each element divided by `max (sqrt (sum of the row's squares)) eps`. -/
def xnS (x : (⟨2, ![512, 512]⟩ : Shape).Idx → EReal) : (⟨2, ![512, 512]⟩ : Shape).Idx → EReal := fun i =>
  FloatOps.hostDivf (F := Ideal) (φ := .f32) (x i)
    (FloatOps.maximumf (F := Ideal) (φ := .f32)
      (FloatOps.hostUnary (F := Ideal) (φ := .f32) .sqrt
        (zeroW + ∑ k : Fin 512, FloatOps.mulf (F := Ideal) (φ := .f32) (x (ix2 (i 0) k)) (x (ix2 (i 0) k))))
      epsW)

/-- The normalised weight row `c` at column `k`. -/
def wnS (w : (⟨2, ![84281, 512]⟩ : Shape).Idx → EReal) (c : Fin 84281) (k : Fin 512) : EReal :=
  FloatOps.hostDivf (F := Ideal) (φ := .f32) (w (ix2 c k))
    (FloatOps.maximumf (F := Ideal) (φ := .f32)
      (FloatOps.hostUnary (F := Ideal) (φ := .f32) .sqrt
        (zeroW + ∑ k' : Fin 512, FloatOps.mulf (F := Ideal) (φ := .f32) (w (ix2 c k')) (w (ix2 c k'))))
      epsW)

/-- The cosine of row `p` of `x` and row `c` of `w`. -/
def cosS (x : (⟨2, ![512, 512]⟩ : Shape).Idx → EReal) (w : (⟨2, ![84281, 512]⟩ : Shape).Idx → EReal)
    (p : Fin 512) (c : Fin 84281) : EReal :=
  ∑ k : Fin 512, xnS x (ix2 p k) * wnS w c k

/-- The margin applied to one cosine `v`: `v·cos m − sqrt(max(1 − v², 0))·sin m` where `v − th > 0`, else `v − mm`;
    the constants are the words the reference spells (`th` is `−cos m`). -/
def marginS (v : EReal) : EReal :=
  Scalar.select
    (FloatOps.cmpf (F := Ideal) (φ := .f32) .ogt
      (FloatOps.subf (F := Ideal) (φ := .f32) v (FloatOps.ofBits (F := Ideal) .f32 0xBF60A940#32))
      (FloatOps.ofBits (F := Ideal) .f32 0x00000000#32))
    (FloatOps.subf (F := Ideal) (φ := .f32)
      (FloatOps.mulf (F := Ideal) (φ := .f32) v (FloatOps.ofBits (F := Ideal) .f32 0x3F60A940#32))
      (FloatOps.mulf (F := Ideal) (φ := .f32)
        (FloatOps.hostUnary (F := Ideal) (φ := .f32) .sqrt
          (FloatOps.maximumf (F := Ideal) (φ := .f32)
            (FloatOps.subf (F := Ideal) (φ := .f32) (FloatOps.ofBits (F := Ideal) .f32 0x3F800000#32)
              (FloatOps.mulf (F := Ideal) (φ := .f32) v v))
            (FloatOps.ofBits (F := Ideal) .f32 0x00000000#32)))
        (FloatOps.ofBits (F := Ideal) .f32 0x3EF57744#32)))
    (FloatOps.subf (F := Ideal) (φ := .f32) v (FloatOps.ofBits (F := Ideal) .f32 0x3E757744#32))

/-- The whole result: at `(p, c)` the margin of the cosine where `c` is row `p`'s label, the cosine elsewhere, times 32. -/
def G (x : (⟨2, ![512, 512]⟩ : Shape).Idx → EReal) (w : (⟨2, ![84281, 512]⟩ : Shape).Idx → EReal)
    (lbl : (⟨1, ![512]⟩ : Shape).Idx → BitVec 32) : (⟨2, ![512, 84281]⟩ : Shape).Idx → EReal := fun i =>
  FloatOps.mulf (F := Ideal) (φ := .f32)
    (Scalar.select (IntOp.cmpi .eq (BitVec.ofNat 32 (i 1).val) (lbl (ix1 (i 0))))
      (marginS (cosS x w (i 0) (i 1))) (cosS x w (i 0) (i 1)))
    (FloatOps.ofBits (F := Ideal) .f32 0x42000000#32)

/-- `G` at `(p, c)`, the label test as an `if`. -/
theorem G_apply (x : (⟨2, ![512, 512]⟩ : Shape).Idx → EReal) (w : (⟨2, ![84281, 512]⟩ : Shape).Idx → EReal)
    (lbl : (⟨1, ![512]⟩ : Shape).Idx → BitVec 32) (p : Fin 512) (c : Fin 84281) :
    G x w lbl (ix2 p c) =
      if lbl (ix1 p) = BitVec.ofNat 32 c.val then
        marginS (cosS x w p c) * FloatOps.ofBits (F := Ideal) .f32 0x42000000#32
      else cosS x w p c * FloatOps.ofBits (F := Ideal) .f32 0x42000000#32 := by
  show FloatOps.mulf (F := Ideal) (φ := .f32)
    (Scalar.select (IntOp.cmpi .eq (BitVec.ofNat 32 c.val) (lbl (ix1 p)))
      (marginS (cosS x w p c)) (cosS x w p c)) _ = _
  by_cases h : lbl (ix1 p) = BitVec.ofNat 32 c.val
  · rw [if_pos h, h]
    have : IntOp.cmpi .eq (BitVec.ofNat 32 c.val) (BitVec.ofNat 32 c.val) = 1#1 := by
      simp [IntOp.cmpi]
    rw [this]; rfl
  · rw [if_neg h]
    have : IntOp.cmpi .eq (BitVec.ofNat 32 c.val) (lbl (ix1 p)) = 0#1 := by
      have h' : BitVec.ofNat 32 c.val ≠ lbl (ix1 p) := fun e => h e.symm
      show BitVec.ofBool (BitVec.ofNat 32 c.val == lbl (ix1 p)) = 0#1
      rw [beq_eq_false_iff_ne.mpr h']; rfl
    rw [this]; rfl

end Cert.Arc

end
-- ==== Proof.ArcRef.lean ====
/- The reference program's result, read operation by operation, is the margin head `Cert.Arc.G`; its normalised
   first operand is `Cert.Arc.xnS`. -/
import proofs.«101236_j19877108646226_2_alg».proof.Proof.Gen.ReferenceIdeal.Read
import proofs.«101236_j19877108646226_2_alg».proof.Proof.ArcSpec

noncomputable section

open scoped BigOperators

namespace Cert.ArcRef

open Idealize.ShloMosaic Idealize.ShloMosaic.ValueIdx Cert.ReferenceIdeal Cert.ReferenceIdeal.Read Cert.Arc

/-- The divisor of row `j 0` of `x`: the larger of the row's norm and the floor. -/
theorem den_x (x : (⟨S512x512, .f32⟩ : BufTy).Contents (Elt Ideal)) (j : S512x1.Idx) :
    val_main_v2 (F := Ideal) x j =
      FloatOps.maximumf (F := Ideal) (φ := .f32)
        (FloatOps.hostUnary (F := Ideal) (φ := .f32) .sqrt
          (zeroW + ∑ k : Fin 512, FloatOps.mulf (F := Ideal) (φ := .f32) (x (ix2 (j 0) k)) (x (ix2 (j 0) k))))
        epsW := by
  have hi : ∀ k : Fin 512, idx_main_call0_v1 (idx_main_call0_v2 j) k = ix2 (j 0) k := fun k =>
    funext fun a => Fin.ext (by match a with | ⟨0, _⟩ => rfl | ⟨1, _⟩ => rfl)
  rw [val_main_v2_apply, val_main_v0_apply, val_main_call0_v2_apply, val_main_call0_v1_apply, val_main_v1_apply,
    val_main_cst_apply, val_main_call0_cst_apply]
  simp only [hi]
  rfl

/-- The divisor of row `j 0` of `w`. -/
theorem den_w (w : (⟨S84281x512, .f32⟩ : BufTy).Contents (Elt Ideal)) (j : S84281x1.Idx) :
    val_main_v7 (F := Ideal) w j =
      FloatOps.maximumf (F := Ideal) (φ := .f32)
        (FloatOps.hostUnary (F := Ideal) (φ := .f32) .sqrt
          (zeroW + ∑ k : Fin 512, FloatOps.mulf (F := Ideal) (φ := .f32) (w (ix2 (j 0) k)) (w (ix2 (j 0) k))))
        epsW := by
  have hi : ∀ k : Fin 512, idx_main_call1_v1 (idx_main_call1_v2 j) k = ix2 (j 0) k := fun k =>
    funext fun a => Fin.ext (by match a with | ⟨0, _⟩ => rfl | ⟨1, _⟩ => rfl)
  rw [val_main_v7_apply, val_main_v5_apply, val_main_call1_v2_apply, val_main_call1_v1_apply, val_main_v6_apply,
    val_main_cst_0_apply, val_main_call1_cst_apply]
  simp only [hi]
  rfl

/-- The reference's normalised `x` is `xnS`. -/
theorem xn_eq (x : (⟨S512x512, .f32⟩ : BufTy).Contents (Elt Ideal)) :
    val_main_v4 (F := Ideal) x = xnS x := by
  funext i
  rw [val_main_v4_apply, val_main_v3_apply, den_x]
  rfl

/-- The reference's normalised `w` at an index is `wnS` at the index's coordinates. -/
theorem wn_eq (w : (⟨S84281x512, .f32⟩ : BufTy).Contents (Elt Ideal)) (j : S84281x512.Idx) :
    val_main_v9 (F := Ideal) w j = wnS w (j 0) (j 1) := by
  have hj : w j = w (ix2 (j 0) (j 1)) := congrArg w (eq_ix2 j)
  rw [val_main_v9_apply, val_main_v8_apply, den_w, hj]
  rfl

/-- The reference's cosine array at `i` is `cosS` at `i`'s coordinates. -/
theorem cos_eq (x : (⟨S512x512, .f32⟩ : BufTy).Contents (Elt Ideal)) (w : (⟨S84281x512, .f32⟩ : BufTy).Contents (Elt Ideal))
    (i : S512x84281.Idx) : val_main_v10 (F := Ideal) x w i = cosS x w (i 0) (i 1) := by
  have hl : ∀ k : Fin 512, lidx_main_v10 i k = @ix2 512 512 (i 0) k := fun k =>
    funext fun a => Fin.ext (by match a with | ⟨0, _⟩ => rfl | ⟨1, _⟩ => rfl)
  have hr : ∀ k : Fin 512, ridx_main_v10 i k = @ix2 84281 512 (i 1) k := fun k =>
    funext fun a => Fin.ext (by match a with | ⟨0, _⟩ => rfl | ⟨1, _⟩ => rfl)
  rw [val_main_v10_apply, xn_eq]
  unfold cosS
  refine Finset.sum_congr rfl fun k _ => ?_
  rw [hl, hr, wn_eq]

/-- The reference's result is `G`. -/
theorem ref_eq_G (x : (⟨S512x512, .f32⟩ : BufTy).Contents (Elt Ideal)) (w : (⟨S84281x512, .f32⟩ : BufTy).Contents (Elt Ideal))
    (lbl : (⟨S512, .i32⟩ : BufTy).Contents (Elt Ideal)) :
    val_main_v37 (F := Ideal) x w lbl = G x w lbl := by
  funext i
  have hlab : idx_main_v31 (idx_main_v33 i) = ix1 (i 0) :=
    funext fun a => Fin.ext (by match a with | ⟨0, _⟩ => rfl)
  rw [val_main_v37_apply, val_main_v36_apply, val_main_cst_8_apply, val_main_v35_apply, val_main_v34_apply,
    val_main_v33_apply, val_main_v31_apply, val_main_v32_apply, val_main_v30_apply, val_main_v29_apply, hlab,
    val_main_v28_apply, val_main_v27_apply, val_main_v26_apply, val_main_cst_7_apply,
    val_main_v25_apply, val_main_v24_apply, val_main_cst_6_apply, val_main_v23_apply, val_main_v22_apply, val_main_cst_5_apply,
    val_main_v21_apply, val_main_v20_apply, val_main_v19_apply, val_main_cst_4_apply, val_main_v18_apply, val_main_v17_apply,
    val_main_cst_3_apply, val_main_v16_apply, val_main_v15_apply, val_main_v14_apply, val_main_cst_2_apply, val_main_v13_apply,
    val_main_v12_apply, val_main_cst_1_apply, val_main_v11_apply]
  simp only [cos_eq]
  rfl

end Cert.ArcRef

end
-- ==== Proof.ArcHost.lean ====
/-
  What the host computes before the region: the batch divided, row by row, by the larger of the row's norm and ε
  (the same operations the reference applies to the batch), and the labels viewed as a column.
-/
import proofs.«101236_j19877108646226_2_alg».proof.Proof.Gen.KernelIdeal.Frame
import proofs.«101236_j19877108646226_2_alg».proof.Proof.ArcRef
import proofs.«101236_j19877108646226_2_alg».proof.Proof.LibIx2
import Idealize.ShloMosaic.Lib.StableHlo.Run
import Idealize.ShloMosaic.Lib.ValueIdx

set_option maxRecDepth 16384

noncomputable section

namespace Cert.ArcHost

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-- The region finds the normalised batch in the batch window's array. -/
theorem V_batch (c : Dev nD) :
    (V m c main_v5 : S512x512.Idx → EReal) = Cert.Arc.xnS (m ((c : Thread nD τ).loc main_arg0)) := by
  have e : @Eq (S512x512.Idx → EReal) (V m c main_v5)
      (truncf (F := Ideal) (s := S512x512) (φ := .f32) .bf16
        (Cert.ReferenceIdeal.Read.val_main_v4 (F := Ideal) (m ((c : Thread nD τ).loc main_arg0)) : FVec Ideal S512x512 .f32)
        bitsLt_bf16_f32) := by
    dsimp only [V]
    simp only [hostOps0, hostOps0_1, List.flatten_cons, List.flatten_nil, List.append_nil, List.cons_append, List.nil_append]
    after_results
    rfl
  rw [e]
  funext i
  rw [truncf_apply, Cert.ArcRef.xn_eq]

/-- The region finds the labels, as a column, in the label window's array. -/
theorem V_labels (c : Dev nD) (p : Fin 512) :
    (V m c main_v6 : S512x1.Idx → BitVec 32) (ix2 p (0 : Fin 1)) = m ((c : Thread nD τ).loc main_arg2) (ix1 p) := by
  have e : @Eq (S512x1.Idx → BitVec 32) (V m c main_v6)
      (shapeCast S512x1 (m ((c : Thread nD τ).loc main_arg2) : S512.Idx → BitVec 32) shapeCasts_S512_S512x1) := by
    dsimp only [V]
    simp only [hostOps0, hostOps0_1, List.flatten_cons, List.flatten_nil, List.append_nil, List.cons_append, List.nil_append]
    after_results
    rfl
  rw [e]
  exact Cert.LibIx2.shapeCast_a_a1_apply _ shapeCasts_S512_S512x1 p 0

end Cert.ArcHost

end
-- ==== Proof.ArcLaw.lean ====
/- The real-number law behind the weight normalisation: for a row of real entries, multiplying by the reciprocal
   square root of `max (sum of squares) eps²` is dividing by `max (sqrt (sum of squares)) eps`. -/
import proofs.«101236_j19877108646226_2_alg».proof.Proof.ArcSpec

noncomputable section

open scoped BigOperators

namespace Cert.Arc

open Idealize.ShloMosaic Idealize.ShloMosaic.ValueIdx

/-- The floor's word `0x2B8CBCCC` denotes `2305843 / 2^61`. -/
theorem eps_val : FloatOps.ofBits (F := Ideal) .f32 0x2B8CBCCC#32 = ((2305843 / 2305843009213693952 : ℝ) : EReal) := by
  simp [Ideal.ofBits, Ideal.ieee, -EReal.coe_mul]; norm_num

/-- The word of `+0.0` denotes `0`. -/
theorem zero_val : FloatOps.ofBits (F := Ideal) .f32 0x00000000#32 = (0 : EReal) := by
  simp [Ideal.ofBits, Ideal.ieee]

/-- The square of the floor, `2305843² / 2^122`, as an extended real. -/
abbrev epsSq : EReal := ((5316911940649 / 5316911983139663491615228241121378304 : ℝ) : EReal)

/-- A finite sum of reals, read in the extended reals, is the sum of the readings. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The law on reals: for `s ≥ 0` and `e > 0`, `r · (sqrt (max s e²))⁻¹ = r / max (sqrt s) e` — the square root is
    monotone, so it commutes with `max`, and `sqrt (e²) = e`; both sides stay off the corner cases since the
    maxima are positive. -/
theorem scalar_law (r s e : ℝ) (hs : 0 ≤ s) (he : 0 < e) :
    (r : EReal) * Ideal.rsqrt (max (s : EReal) ((e * e : ℝ) : EReal)) =
      Ideal.div (r : EReal) (max (Ideal.sqrt (s : EReal)) (e : EReal)) := by
  have hmax : max (s : EReal) ((e * e : ℝ) : EReal) = ((max s (e * e) : ℝ) : EReal) :=
    (EReal.coe_strictMono.monotone.map_max).symm
  have hpos : 0 < max s (e * e) := lt_max_of_lt_right (mul_pos he he)
  have hsq : Real.sqrt (max s (e * e)) = max (Real.sqrt s) e := by
    rw [Real.sqrt_monotone.map_max, Real.sqrt_mul_self he.le]
  have hsqrt : Ideal.sqrt (s : EReal) = ((Real.sqrt s : ℝ) : EReal) := by
    rw [Ideal.sqrt_coe, if_neg (not_lt.mpr hs)]
  have hmax2 : max ((Real.sqrt s : ℝ) : EReal) (e : EReal) = ((max (Real.sqrt s) e : ℝ) : EReal) :=
    (EReal.coe_strictMono.monotone.map_max).symm
  have hne : max (Real.sqrt s) e ≠ 0 := (lt_max_of_lt_right he).ne'
  rw [hmax, Ideal.rsqrt_coe, if_neg (not_lt.mpr hpos.le), if_neg hpos.ne', hsq, hsqrt, hmax2, Ideal.div_coe hne, one_div]

/-- A row of real entries has a real, nonnegative sum of squares. -/
theorem row_sum_real (w : (⟨2, ![84281, 512]⟩ : Shape).Idx → EReal) (c : Fin 84281) (r : Fin 512 → ℝ)
    (hr : ∀ k, w (ix2 c k) = (r k : EReal)) :
    ∑ k : Fin 512, w (ix2 c k) * w (ix2 c k) = ((∑ k : Fin 512, r k * r k : ℝ) : EReal) := by
  simp only [hr, ← EReal.coe_mul]
  exact coe_sum _ _

/-- The law, without the leading zero word: on a row of real entries,
    `w · rsqrt (max (∑ w²) eps²) = w / max (sqrt (∑ w²)) eps`. -/
theorem wn_law' (w : (⟨2, ![84281, 512]⟩ : Shape).Idx → EReal) (c : Fin 84281)
    (hw : ∀ k : Fin 512, ∃ r : ℝ, w (ix2 c k) = (r : EReal)) (k : Fin 512) :
    w (ix2 c k) * Ideal.rsqrt (max (∑ k' : Fin 512, w (ix2 c k') * w (ix2 c k')) epsSq) =
      FloatOps.hostDivf (F := Ideal) (φ := .f32) (w (ix2 c k))
        (FloatOps.maximumf (F := Ideal) (φ := .f32)
          (FloatOps.hostUnary (F := Ideal) (φ := .f32) .sqrt (∑ k' : Fin 512, w (ix2 c k') * w (ix2 c k')))
          (FloatOps.ofBits (F := Ideal) .f32 0x2B8CBCCC#32)) := by
  choose r hr using hw
  have hsq : epsSq = (((2305843 / 2305843009213693952 : ℝ) * (2305843 / 2305843009213693952 : ℝ) : ℝ) : EReal) := by
    show ((_ : ℝ) : EReal) = _
    congr 1; norm_num
  rw [row_sum_real w c r hr, hr k, eps_val, hsq]
  exact scalar_law (r k) _ _ (Finset.sum_nonneg fun k' _ => mul_self_nonneg (r k')) (by norm_num)

/-- The law with the sum of squares started from the word of `+0.0`, as both programs start it. -/
theorem wn_law (w : (⟨2, ![84281, 512]⟩ : Shape).Idx → EReal) (c : Fin 84281)
    (hw : ∀ k : Fin 512, ∃ r : ℝ, w (ix2 c k) = (r : EReal)) (k : Fin 512) :
    w (ix2 c k) * Ideal.rsqrt (max (FloatOps.ofBits (F := Ideal) .f32 0x00000000#32 + ∑ k' : Fin 512, w (ix2 c k') * w (ix2 c k')) epsSq) =
      FloatOps.hostDivf (F := Ideal) (φ := .f32) (w (ix2 c k))
        (FloatOps.maximumf (F := Ideal) (φ := .f32)
          (FloatOps.hostUnary (F := Ideal) (φ := .f32) .sqrt
            (FloatOps.ofBits (F := Ideal) .f32 0x00000000#32 + ∑ k' : Fin 512, w (ix2 c k') * w (ix2 c k')))
          (FloatOps.ofBits (F := Ideal) .f32 0x2B8CBCCC#32)) := by
  rw [zero_val, zero_add]
  exact wn_law' w c hw k

/-- So the product with the reciprocal square root is the reference's normalised weight `wnS`. -/
theorem wn_law_wnS (w : (⟨2, ![84281, 512]⟩ : Shape).Idx → EReal) (c : Fin 84281)
    (hw : ∀ k : Fin 512, ∃ r : ℝ, w (ix2 c k) = (r : EReal)) (k : Fin 512) :
    w (ix2 c k) * Ideal.rsqrt (max (FloatOps.ofBits (F := Ideal) .f32 0x00000000#32 + ∑ k' : Fin 512, w (ix2 c k') * w (ix2 c k')) epsSq) =
      wnS w c k :=
  wn_law w c hw k

/-- The same from the sum without the zero word. -/
theorem wn_law_wnS' (w : (⟨2, ![84281, 512]⟩ : Shape).Idx → EReal) (c : Fin 84281)
    (hw : ∀ k : Fin 512, ∃ r : ℝ, w (ix2 c k) = (r : EReal)) (k : Fin 512) :
    w (ix2 c k) * Ideal.rsqrt (max (∑ k' : Fin 512, w (ix2 c k') * w (ix2 c k')) epsSq) = wnS w c k := by
  rw [wn_law' w c hw k]
  show _ = FloatOps.hostDivf (F := Ideal) (φ := .f32) (w (ix2 c k)) (FloatOps.maximumf (F := Ideal) (φ := .f32)
      (FloatOps.hostUnary (F := Ideal) (φ := .f32) .sqrt
        (FloatOps.ofBits (F := Ideal) .f32 0x00000000#32 + ∑ k' : Fin 512, w (ix2 c k') * w (ix2 c k'))) _)
  rw [zero_val, zero_add]

end Cert.Arc

end
-- ==== Proof.ArcBridge.lean ====
/- The kernel side's whole-array function `GA` — every weight row multiplied by the reciprocal square root of
   `max (its squared norm) ε²`, the margin taken after the product with 32 is distributed — is the margin head `G`
   of the specification, on weights that are real numbers. -/
import proofs.«101236_j19877108646226_2_alg».proof.Proof.ArcWhole
import proofs.«101236_j19877108646226_2_alg».proof.Proof.ArcLaw
import Idealize.ShloMosaic.PureOps.IdealRules

noncomputable section

open scoped BigOperators

namespace Cert.ArcBridge

open Cert.KernelIdeal Idealize.ShloMosaic Idealize.ShloMosaic.ValueIdx

/-- The named constant ε² denotes `2305843² / 2^122`, by the certificate's table. -/
theorem epsSq_val : Cert.ArcPay.epsSq = ((5316911940649 / 5316911983139663491615228241121378304 : ℝ) : EReal) :=
  IdealRules.named_const.ideal_named_scalar _ _ _ _ rfl

/-- The two spellings of the margin map are one function: on the extended reals the difference, the product, the
    maximum and the square root are the same operations under either name. -/
theorem margin_eq (v : EReal) : Cert.ArcPay.marginT v = Cert.Arc.marginS v := rfl

/-- Choosing between two products with a common factor is the product of the choice with that factor. -/
theorem select_mul (c : BitVec 1) (a b k : EReal) : Scalar.select c (a * k) (b * k) = Scalar.select c a b * k := by
  unfold Scalar.select; split <;> rfl

/-- On real weights the cosine formed with reciprocal square roots is the cosine of the specification: each scaled
    weight entry is the entry divided by `max (the row's norm) ε`. -/
theorem cosA_eq (x : S512x512.Idx → EReal) (w : S84281x512.Idx → EReal) (hw : ∀ i, ∃ r : ℝ, w i = (r : EReal))
    (p : Fin 512) (r : Fin 84281) : Cert.ArcDat.cosA (Cert.Arc.xnS x) w p r = Cert.Arc.cosS x w p r := by
  unfold Cert.ArcDat.cosA Cert.Arc.cosS
  refine Finset.sum_congr rfl fun k _ => ?_
  refine congrArg (Cert.Arc.xnS x (ix2 p k) * ·) ?_
  rw [epsSq_val]
  exact Cert.Arc.wn_law_wnS' w r (fun k' => hw _) k

/-- So the whole-array function is `G`, the label column read as the label vector. -/
theorem GA_eq_G (x : S512x512.Idx → EReal) (w : S84281x512.Idx → EReal) (lbl : (⟨1, ![512]⟩ : Shape).Idx → BitVec 32)
    (hw : ∀ i, ∃ r : ℝ, w i = (r : EReal)) (L : S512x1.Idx → BitVec 32)
    (hL : ∀ p : Fin 512, L (ix2 p (0 : Fin 1)) = lbl (ix1 p)) :
    Cert.ArcDat.GA (Cert.Arc.xnS x) w L = Cert.Arc.G x w lbl := by
  funext i
  have hc : Cert.ArcDat.cosA (Cert.Arc.xnS x) w (i 0) (i 1) = Cert.Arc.cosS x w (i 0) (i 1) := cosA_eq x w hw (i 0) (i 1)
  have hl : L (@ix2 512 1 (i 0) (0 : Fin 1)) = lbl (@ix1 512 (i 0)) := hL (i 0)
  show Scalar.select (IntOp.cmpi .eq (BitVec.ofNat 32 (i 1).val) (L (@ix2 512 1 (i 0) (0 : Fin 1))))
      (Cert.ArcPay.marginT (Cert.ArcDat.cosA (Cert.Arc.xnS x) w (i 0) (i 1)) * Ideal.ofBits .f32 0x42000000#32)
      (Cert.ArcDat.cosA (Cert.Arc.xnS x) w (i 0) (i 1) * Ideal.ofBits .f32 0x42000000#32)
    = Scalar.select (IntOp.cmpi .eq (BitVec.ofNat 32 (i 1).val) (lbl (@ix1 512 (i 0))))
        (Cert.Arc.marginS (Cert.Arc.cosS x w (i 0) (i 1))) (Cert.Arc.cosS x w (i 0) (i 1)) * Ideal.ofBits .f32 0x42000000#32
  rw [hl, hc, margin_eq, select_mul]

end Cert.ArcBridge

end
-- ==== Proof.ArcRun.lean ====
/-
  The idealized kernel's run: it terminates, leaves its arguments unchanged, and its result array ends holding the
  margin head of the arguments — the function the reference computes.
-/
import proofs.«101236_j19877108646226_2_alg».proof.Proof.ArcOblig
import proofs.«101236_j19877108646226_2_alg».proof.Proof.ArcFinal
import proofs.«101236_j19877108646226_2_alg».proof.Proof.ArcHost
import proofs.«101236_j19877108646226_2_alg».proof.Proof.ArcBridge

set_option maxRecDepth 16384

noncomputable section

namespace Cert.ArcDat

open Cert.KernelIdeal Cert.KernelIdeal.Gen Cert.ArcPay Cert.KernelIdealBody
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- At the compiled mesh, for any extended-real values, from any memory with zero counters: every weakly fair
    execution of @main terminates, every array of the pipeline ends at what the write-backs of the proof data give and
    every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := fun _ _ => rfl) (hΦ := fun _ _ => rfl)

/-- The idealized kernel runs and leaves its three argument arrays unchanged. -/
theorem frame_ideal : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (fun _ _ => rfl) (run_main m ρ)

/-- The output array after the run is the margin head of the argument arrays, when the weights are real numbers. -/
theorem out_eq (hw : ∀ (c : Dev nD) i, ∃ r : ℝ, m ((c.tc : Thread nD τ).loc main_arg1) i = (r : EReal)) (c : Dev nD) :
    (dats m 0 c).arrAt (3 : Fin 4) cfg0.N
      = Cert.Arc.G (m ((c.tc : Thread nD τ).loc main_arg0)) (m ((c.tc : Thread nD τ).loc main_arg1)) (m ((c.tc : Thread nD τ).loc main_arg2)) := by
  rw [final m c, Cert.ArcHost.V_batch m c]
  have hA1 : @Eq (S84281x512.Idx → EReal) (V m c main_arg1) (m ((c.tc : Thread nD τ).loc main_arg1)) := V_main_arg1 m c
  rw [hA1]
  exact Cert.ArcBridge.GA_eq_G _ _ _ (hw c) _ (fun p => Cert.ArcHost.V_labels m c p)

/-- The idealized kernel runs, its result array ends at the margin head of its arguments, the arguments unchanged. -/
theorem run_value (hw : ∀ (c : Dev nD) i, ∃ r : ℝ, m ((c.tc : Thread nD τ).loc main_arg1) i = (r : EReal)) :
    θ_run defs (onTc (τ := τ) (main (F := Ideal))) ⟨m, fun _ => 0, ρ⟩ (fun r => ∀ c : Dev nD,
      r.2.mem ((c.tc : Thread nD τ).loc main_v7)
        = Cert.Arc.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans (out_eq m hw c),
     ((h c).2 main_arg0 (Pipeline.mem_restRefs_of main_arg0 (by decide) (by decide))).trans (V_main_arg0 m c),
     ((h c).1 1).trans (((dats m 0 c).arrAt_in 1 rfl _).trans (V_main_arg1 m c)),
     ((h c).2 main_arg2 (Pipeline.mem_restRefs_of main_arg2 (by decide) (by decide))).trans (V_main_arg2 m c)⟩)
    (run_main m ρ)

end Cert.ArcDat

end
-- ==== Proof.ArcFinite.lean ====
/- The precondition "every entry of `x` and of `w` has absolute value below +∞" gives, over the extended reals, that
   every entry is a real number. -/
import proofs.«101236_j19877108646226_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.ArcFinite

open Idealize.ShloMosaic Cert.Pre_finite_inputs

instance : Subsingleton S_.Idx := ⟨fun a b => funext fun d => d.elim0⟩

/-- The word `0x7F800000` denotes `+∞`. -/
theorem inf_val : FloatOps.ofBits (F := Ideal) .f32 0x7F800000#32 = (⊤ : EReal) := by
  simp [Ideal.ofBits, Ideal.ieee]

/-- An extended real whose absolute value `max v (−v)` is below `+∞` is a real: at `+∞` and at `−∞` that maximum is `+∞`. -/
theorem real_of_abs_lt (v : EReal)
    (h : FloatOps.cmpf (F := Ideal) (φ := .f32) .olt (FloatOps.hostAbsf (F := Ideal) (φ := .f32) v)
      (FloatOps.ofBits (F := Ideal) .f32 0x7F800000#32) = 1#1) : ∃ r : ℝ, v = (r : EReal) := by
  rw [inf_val] at h
  have h' : BitVec.ofBool (decide (max v (-v) < (⊤ : EReal))) = 1#1 := h
  have hlt : max v (-v) < (⊤ : EReal) := by
    by_contra hn
    rw [decide_eq_false hn] at h'
    exact absurd h' (by decide)
  induction v using EReal.rec with
  | bot => exact absurd hlt (by simp)
  | coe r => exact ⟨r, rfl⟩
  | top => exact absurd hlt (by simp)

variable [Facts]

/-- Under the precondition every entry of `x` and every entry of `w` is a real number. -/
theorem finite_of_pre (x : FVec Ideal S512x512 .f32) (w : FVec Ideal S84281x512 .f32) (l : IVec S512 32)
    (h : Cert.Pre_finite_inputs.fn (F := Ideal) x w l = fun _ => 1#1) :
    (∀ i, ∃ r : ℝ, x i = (r : EReal)) ∧ (∀ i, ∃ r : ℝ, w i = (r : EReal)) := by
  have h0 := congrFun h ValueIdx.ix0
  dsimp only [Cert.Pre_finite_inputs.fn] at h0
  obtain ⟨hx, hw⟩ := IntOp.andi_eq_one.1 h0
  refine ⟨fun i => ?_, fun i => ?_⟩
  · exact real_of_abs_lt (x i) (Host.reduce_andi_all _ _ _ _ _ hx i)
  · exact real_of_abs_lt (w i) (Host.reduce_andi_all _ _ _ _ _ hw i)

end Cert.ArcFinite

end
-- ==== Proof.ArcRefClaims.lean ====
/- The reference side of the claims: the reference program runs and leaves its arguments unchanged; it ends with the
   margin head `G` of its arguments; the one idealization is the named constant ε²; and the precondition makes
   every weight a real number. -/
import proofs.«101236_j19877108646226_2_alg».proof.Defs
import proofs.«101236_j19877108646226_2_alg».proof.Proof.Gen.ReferenceIdeal
import proofs.«101236_j19877108646226_2_alg».proof.Proof.Gen.Pre_finite_inputs
import proofs.«101236_j19877108646226_2_alg».proof.Proof.ArcRef
import proofs.«101236_j19877108646226_2_alg».proof.Proof.ArcFinite
import Idealize.ShloMosaic.PureOps.IdealRules

noncomputable section

namespace Cert.ArcRefClaims

open Idealize.ShloMosaic Idealize.ShloMosaic.TcCoe Idealize.SL.Sem

/-- The reference program runs to the end and its argument arrays end unchanged. -/
theorem frame_ri : Cert.frame_ReferenceIdeal := fun m ρ _ =>
  (θ_run Cert.ReferenceIdeal.defs _ _).mono (fun _ h c => (h c).2) (Cert.ReferenceIdeal.Value.run (F := Ideal) m ρ)

/-- The one idealization: the table gives the name of ε² the rational `2305843² / 2^122`, and the printed constant is
    that value on the extended reals. -/
theorem preserves : Cert.preserves_Kernel_KernelIdeal :=
  IdealRules.named_const.statement Cert.KernelIdeal.κ "eps_sq" .f32 0x179ABE15#32
    ((5316911940649 / 5316911983139663491615228241121378304 : ℝ) : EReal) rfl

section
open Cert.ReferenceIdeal

/-- The reference program ends with its result array holding `G` of its three arguments, the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v37)
        = Cert.Arc.G (m' ((c.tc : Thread nD τ).loc main_arg0)) (m' ((c.tc : Thread nD τ).loc main_arg1)) (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) :=
  (θ_run defs _ _).mono
    (fun _ h c => ⟨(h c).1.trans ((Cert.ReferenceIdeal.Read.val_main_v37_eq m' c).trans (Cert.ArcRef.ref_eq_G _ _ _)), (h c).2⟩)
    (Cert.ReferenceIdeal.Value.run (F := Ideal) m' ρ')
end

section
open Cert.KernelIdeal

/-- Under the precondition every entry of the kernel's weight argument is a real number, on every device. -/
theorem pre_finite (m : (ℓ : Loc nD τ sig) → Buf (Elt Ideal) ℓ) (h : Cert.Pre_KernelIdeal m) (c : Dev nD) :
    ∀ i, ∃ r : ℝ, m ((c.tc : Thread nD τ).loc main_arg1) i = (r : EReal) :=
  (Cert.ArcFinite.finite_of_pre _ _ _ (h c)).2

/-- And every entry of its batch argument. -/
theorem pre_finite_x (m : (ℓ : Loc nD τ sig) → Buf (Elt Ideal) ℓ) (h : Cert.Pre_KernelIdeal m) (c : Dev nD) :
    ∀ i, ∃ r : ℝ, m ((c.tc : Thread nD τ).loc main_arg0) i = (r : EReal) :=
  (Cert.ArcFinite.finite_of_pre _ _ _ (h c)).1
end

end Cert.ArcRefClaims

end
-- ==== Proof.BodyBits.lean ====
/-
  The kernel body's triple, for any float instance: on four WHOLE staging memrefs — the normalised activations'
  (bf16[512, 512]), the weight block's (f32[2048, 512]), the labels' (i32[512, 1]) and the output block's
  (f32[512, 2048]) — the body loads the first three whole, computes, and overwrites the fourth whole with one
  unmasked store. So the first three buffers are handed back as found, and the fourth holds the store's payload
  as a function of what the three loads read (`outPay`), whatever it held before.

  Two facts about whole-buffer accesses carry it, both true at any shape: a load through the rectangle at zero
  offsets of the buffer's own sizes reads the buffer's contents, and one unmasked store through it leaves its
  payload.
-/
import proofs.«101236_j19877108646226_2_alg».proof.Proof.Gen.Kernel.Launch
import proofs.«101236_j19877108646226_2_alg».proof.Proof.Gen.Kernel.Skeleton
import proofs.«101236_j19877108646226_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.KernelBody

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Whole-buffer accesses -/

/-- One unmasked store through the whole-shape rectangle at zero offsets leaves its payload, whatever the buffer
    held before. -/
theorem read_writes_unit_zero {sg : RefSig} {κ : Kind} {sp : Space} {S : Shape} {e : EltTy} {Val : EltTy → Type}
    [∀ e, Nonempty (Val e)] (v : View sg κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

/-- A load through that rectangle reads the buffer's contents. -/
theorem readAt_unit_zero' {sg : RefSig} {κ : Kind} {sp : Space} {S : Shape} {e : EltTy} {Val : EltTy → Type}
    (v : View sg κ sp S e) (f : v.ty.Contents Val) {off : Fin S.rank → Nat}
    (h : off = fun _ => 0) (inb : ∀ a, off a + S.size a ≤ S.size a) :
    v.readAt Val (Rect.unit off S.size inb).toLoadRect f = v.read Val f :=
  View.ld_unit_zero h inb _

/-- The printed zero offsets of a rank-2 access are the constant zero. -/
theorem zeros2 : (![0, 0] : Fin 2 → Nat) = fun _ => 0 := funext fun a => by fin_cases a <;> rfl

/-! ## What the body stores -/

/-- The output block the body stores, from what its three loads read — the activations `X0` (already normalised),
    the weight block `X1` and the labels `X2`: `32 ·` the products of `X0`'s rows with `X1`'s rows normalised,
    and, in a row whose label column lies in the block, `32 ·` the margin-adjusted cosine there instead. -/
def outPay (i : grid0.Coords) (X0 : Vec F S512x512 .bf16) (X1 : Vec F S2048x512 .f32) (X2 : Vec F S512x1 .i32) :
    FVec F S512x2048 .f32 :=
  Gen.k0_pay1 (Gen.k0_pay2 X0 X1) (Gen.k0_pay3 i X2) (Gen.k0_pay4 i X0 X1 X2) (Gen.k0_pay5 i X0 X1 X2)
    (Gen.k0_pay6 i X0 X1 X2) (Scalar.ofBits .f32 0x3E757744#32)

/-! ## The body's triple -/

set_option maxHeartbeats 1000000 in
/-- The kernel body on whole staging memrefs, the three inputs' at read contents `X0`, `X1`, `X2` and the output's
    at anything: it runs to the continuation holding the inputs' buffers as they were and the output's at
    `outPay i X0 X1 X2`. -/
theorem sound_kernel (c : Dev nD) (E : Set ℕ) (i : grid0.Coords)
    (arg1 : Memref sig .tc .vmem S512x512 .bf16) (harg1 : arg1.IsWhole)
    (arg2 : Memref sig .tc .vmem S2048x512 .f32) (harg2 : arg2.IsWhole)
    (arg3 : Memref sig .tc .vmem S512x1 .i32) (harg3 : arg3.IsWhole)
    (arg4 : Memref sig .tc .vmem S512x2048 .f32) (harg4 : arg4.IsWhole)
    (X0 : Vec F S512x512 .bf16) (X1 : Vec F S2048x512 .f32) (X2 : Vec F S512x1 .i32) (K : PUnit → sProp 𝕄) :
    iprop(owns (c : Thread nD τ) arg1 fullShare X0 ∗ owns (c : Thread nD τ) arg2 fullShare X1
        ∗ owns (c : Thread nD τ) arg3 fullShare X2 ∗ (∃ d, owns (c : Thread nD τ) arg4 fullShare d)
        ∗ (iprop(owns (c : Thread nD τ) arg1 fullShare X0 ∗ owns (c : Thread nD τ) arg2 fullShare X1
            ∗ owns (c : Thread nD τ) arg3 fullShare X2 ∗ owns (c : Thread nD τ) arg4 fullShare (outPay i X0 X1 X2)) -∗ K ⟨⟩))
      ⊢ wp frame (wpE (defs₀ (F := F)) Variants.none c none) E
          (cc0__arcmargin_kernel i arg1 harg1 arg2 harg2 arg3 harg3 arg4 harg4) K := by
  simp only [cc0__arcmargin_kernel_eq_skeleton]; unfold cc0__arcmargin_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the one store is through the whole buffer: it leaves its payload; each load was through the whole buffer: it
  -- read the contents
  refine (read_writes_unit_zero arg4.view f3 zeros2 inb_S512x2048_S512x2048_0_0 _).trans ?_
  rw [readAt_unit_zero' arg1.view f0 zeros2 inb_S512x512_S512x512_0_0,
    readAt_unit_zero' arg2.view f1 zeros2 inb_S2048x512_S2048x512_0_0,
    readAt_unit_zero' arg3.view f2 zeros2 inb_S512x1_S512x1_0_0]
  rfl

end Cert.KernelBody
-- ==== Proof.FrameBits.lean ====
/- The word-level program runs to the end and leaves its three arguments unchanged.

   The region stages four windows: the normalised batch, a tile of 2048 weight rows, the label column and a tile of
   2048 output columns. The last weight tile overhangs the weight array, and past the array's end its staging buffer
   holds words nothing names; at the word level the matrix product is a function of its whole right operand, so
   what the body leaves in the output buffer cannot be named from the arrays alone. The frame does not need it: the
   proof data here relates what the body finds in a buffer to what it leaves there by the relation that always
   holds. An input array is never written, so the weight array ends as the region found it; the other two
   arguments are staged by no window and bypass the region. -/
import proofs.«101236_j19877108646226_2_alg».proof.Defs
import proofs.«101236_j19877108646226_2_alg».proof.Proof.Gen.Kernel.Frame
import proofs.«101236_j19877108646226_2_alg».proof.Proof.Gen.Kernel.Skeleton
import proofs.«101236_j19877108646226_2_alg».proof.Proof.BodyBits
import proofs.«101236_j19877108646226_2_alg».proof.Proof.Gen.Pre_finite_inputs
import Idealize.ShloMosaic.Lib.Pipeline.FrameBody
import Idealize.ShloMosaic.Lib.Tactic

set_option maxRecDepth 16384

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The proof data, relational: the arrays at what the region finds in them; of what the body leaves in a staging
    buffer nothing is said; the invariant is the class's, nothing is owed, the shares are full. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem A_eq (c : Dev nD) (w : Fin cfg0.W) : (rdat m c).A w = V m c (Pipeline.arrRef spec0 w) := by
  dsimp only [rdat]

theorem share_eq (c : Dev nD) (w : Fin cfg0.W) : (rdat m c).share w = fullShare := by
  unfold RDat.share; split <;> rfl

/-- The body at any point, whatever the four buffers hold: it returns them at some contents. -/
theorem sound_body (c : Dev nD) (t : Fin cfg0.N) (Y : (w : Fin cfg0.W) → (cfg0.win w).block.Idx → Elt F (cfg0.win w).elt) :
    iprop((rdat m c).Φ t.castSucc ∗ (rdat m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (st0_0 t) fullShare X)
            ∗ (∃ X, ⌜(rdat m c).after 1 t (Y 1) X⌝ ∗ owns (c : Thread nD τ) (st0_1 t) fullShare X)
            ∗ (∃ X, ⌜(rdat m c).after 2 t (Y 2) X⌝ ∗ owns (c : Thread nD τ) (st0_2 t) fullShare X)
            ∗ (∃ X, ⌜(rdat m c).after 3 t (Y 3) X⌝ ∗ owns (c : Thread nD τ) (st0_3 t) fullShare X))) := by
  rw [show (rdat m c).Φ t.succ = (rdat m c).Φ t.castSucc from rfl,
    show (rdat m c).owesAt () t.succ = (rdat m c).owesAt () t.castSucc from rfl]
  iintro ⟨HΦ, Ho, H0, H1, H2, H3⟩
  iapply (Cert.KernelBody.sound_kernel c Set.univ (grid0.coords t) _ _ _ _ _ _ _ _ (Y 0) (Y 1) (Y 2) _)
  isplitl [H0]; · iexact H0
  isplitl [H1]; · iexact H1
  isplitl [H2]; · iexact H2
  isplitl [H3]; · iexists (Y 3); iexact H3
  iintro ⟨H0, H1, H2, H3⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  · iexists (Cert.KernelBody.outPay (grid0.coords t) (Y 0) (Y 1) (Y 2)); isplitr; · ipureintro; trivial
    iexact H3

/-- The library's body obligation of the relational data. -/
theorem body_obligation (c : Dev nD) : (rdat m c).BodyObligation (defs₀ (F := F)) Variants.none () Set.univ := fun t Y _ => by
  rw [bigSep_W0, bigSep_W0]
  exact sound_body m c t Y

set_option backward.isDefEq.respectTransparency.types false in
/-- Every weakly fair execution of the program terminates; at the end every windowed array holds contents it may
    hold after every write-back, and every other unscoped buffer what the region found in it. -/
theorem run_main : θ_run defs (onTc (τ := τ) (main (F := F))) (s₀ m ρ) (Pipeline.RDat.FramePost cfg0 (rdat m) (V m)) :=
  Pipeline.RDat.θ_run_frame cfgs (0 : Fin 1) launch0 defs₀ Variants.none (rdat m) m ρ main
    (hbody := body_obligation m) (hshare := share_eq m)
    (howed := fun _ _ => rfl) (V := V m) (hmain := hmain m Variants.none) (hA := A_eq m) (hΦ := fun _ _ => rfl)

/-- The frame, for any float values: the weight array is an input window's, so it ends at its entry contents; the
    batch and the labels are no window's array. None is written by the host operations before the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
      (by
        have h1 := (h c).1 1
        rw [(rdat m c).ArrAt_in 1 rfl] at h1
        exact h1.trans ((A_eq m c 1).trans (V_main_arg1 m c))),
      ((h c).2 main_arg2 (Pipeline.mem_restRefs_of main_arg2 (by decide) (by decide))).trans (V_main_arg2 m c)⟩)
    (run_main m ρ)

end Cert.KernelFrame

namespace Cert.KernelFrame
open Idealize.ShloMosaic Idealize.SL.Sem
/-- The frame claim of the word-level program. -/
theorem frame_bits : Cert.frame_Kernel := fun m ρ _ => Cert.KernelFrame.frame (F := Bits) m ρ
end Cert.KernelFrame

end
-- ==== Proof.lean ====
/-
  The ArcFace margin head on a TPU against its jnp reference, equal as functions on the extended reals.

  For a batch x (512 × 512), class weights w (84281 × 512) and labels l, both programs divide each row of x by
  max(‖row‖, ε); the reference divides each row of w by max(‖row‖, ε), the kernel multiplies it by
  rsqrt(max(‖row‖², ε²)) — one number for a row of reals, since √(max(s, ε²)) = max(√s, ε) for s ≥ 0 and the kernel's
  constant is NAMED the exact square of the reference's ε. The cosines are the products of the normalised rows. The
  reference applies the angular margin to every cosine and keeps it at the label's column; the kernel, streaming
  2048 classes per grid point, extracts the label's cosine as a masked row sum (every other term is the literal zero),
  applies the margin to that one number and stores it at the masked column. Both scale by 32.

  The kernel side is read off its pipeline run: the last of the 42 weight tiles overhangs the array (84281 = 41·2048 +
  313), so its tail rows and the output tile's tail columns hold contents nothing names; entry (p, q) of an output
  tile depends on weight row q alone, so the columns written back never see them. The 42 written blocks cover the
  output. The word-level program's frame is proved with the output window's contents left unstated (at the bit level
  the matrix unit's result is not known to be local in its right operand); the reference's run and its reading at an
  index are the generated modules'.
-/
import proofs.«101236_j19877108646226_2_alg».proof.Defs
import proofs.«101236_j19877108646226_2_alg».proof.Proof.Gen.Kernel
import proofs.«101236_j19877108646226_2_alg».proof.Proof.Gen.KernelIdeal
import proofs.«101236_j19877108646226_2_alg».proof.Proof.Gen.ReferenceIdeal
import proofs.«101236_j19877108646226_2_alg».proof.Proof.Gen.Pre_finite_inputs
import proofs.«101236_j19877108646226_2_alg».proof.Proof.ArcRun
import proofs.«101236_j19877108646226_2_alg».proof.Proof.ArcRefClaims
import proofs.«101236_j19877108646226_2_alg».proof.Proof.FrameBits
import Idealize.ShloMosaic.Adequacy
import Idealize.ShloMosaic.Init

noncomputable section

namespace Cert.Proof

open Idealize.ShloMosaic Idealize.SL.Sem

/-- The idealized kernel runs and leaves its arguments unchanged. -/
theorem frame_ki : Cert.frame_KernelIdeal := fun m ρ _ => Cert.ArcDat.frame_ideal m ρ

/-- Run from memories that agree on the arguments, the idealized kernel and the idealized reference both end with
    the margin head of those arguments in their result arrays. The weights are real numbers by the precondition. -/
theorem algebraic : Cert.algebraic_KernelIdeal_ReferenceIdeal := by
  intro m ρ m' ρ' hpre hagree
  refine ⟨fun c => Cert.Arc.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.ArcDat.run_value m ρ (fun c => Cert.ArcRefClaims.pre_finite m hpre c), ?_⟩
  refine (θ_run Cert.ReferenceIdeal.defs _ _).mono (fun _ h c => ⟨(h c).1.trans ?_, (h c).2⟩)
    (Cert.ArcRefClaims.ref_run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    Cert.KernelFrame.frame_bits, frame_ki, Cert.ArcRefClaims.frame_ri, Cert.ArcRefClaims.preserves, algebraic⟩

end Cert.Proof

end
